-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x128 : Shape := ⟨3, ![2, 4096, 128]⟩
abbrev S2x4096x4096 : Shape := ⟨3, ![2, 4096, 4096]⟩
abbrev S128x32 : Shape := ⟨2, ![128, 32]⟩
abbrev S_ : Shape := ⟨0, ![]⟩

class Facts : Prop where
  bcast_S_S2x4096x128 : S_.BroadcastsInDim S2x4096x128 (![] : Fin 0 → Fin S2x4096x128.rank)
  reducesTo_S2x4096x128_S_d0_1_2 : S2x4096x128.ReducesTo [0, 1, 2] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S128x32 : S_.BroadcastsInDim S128x32 (![] : Fin 0 → Fin S128x32.rank)
  reducesTo_S128x32_S_d0_1 : S128x32.ReducesTo [0, 1] S_

variable [Facts]

def fn {F : FTy → Type} [FloatOps F] (main_arg0 : FVec F S2x4096x128 .f32) (main_arg1 : FVec F S2x4096x4096 .f32) (main_arg2 : FVec F S128x32 .f32) : IVec S_ 1 :=
  let main_v0 : FVec F S2x4096x128 .f32 := Host.absf main_arg0
  let main_cst : FVec F S_ .f32 := constant S_ .f32 0x7F800000#32
  let main_v1 : FVec F S2x4096x128 .f32 := broadcastInDim S2x4096x128 ![] bcast_S_S2x4096x128 main_cst
  let main_v2 : IVec S2x4096x128 1 := cmpf .olt main_v0 main_v1
  let main_c : IVec S_ 1 := constantI S_ 1 1#1
  let main_v3 : IVec S_ 1 := (fun x v => Host.reduce IntOp.andi x v reducesTo_S2x4096x128_S_d0_1_2 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  main_v13
-- ==== Kernel.lean ====
abbrev S2x4096x128 : Shape := ⟨3, ![2, 4096, 128]⟩
abbrev S2x4096x4096 : Shape := ⟨3, ![2, 4096, 4096]⟩
abbrev S128x32 : Shape := ⟨2, ![128, 32]⟩
abbrev S2x4096x32 : Shape := ⟨3, ![2, 4096, 32]⟩
abbrev S1x4096x128 : Shape := ⟨3, ![1, 4096, 128]⟩
abbrev S1x1024x4096 : Shape := ⟨3, ![1, 1024, 4096]⟩
abbrev S1x1024x32 : Shape := ⟨3, ![1, 1024, 32]⟩
abbrev S4096x32 : Shape := ⟨2, ![4096, 32]⟩
abbrev S4096x128 : Shape := ⟨2, ![4096, 128]⟩
abbrev S1024x4096 : Shape := ⟨2, ![1024, 4096]⟩
abbrev S1024x32 : Shape := ⟨2, ![1024, 32]⟩
abbrev S1x512x32 : Shape := ⟨3, ![1, 512, 32]⟩
abbrev S1x4096x32 : Shape := ⟨3, ![1, 4096, 32]⟩
abbrev S1x512x4096 : Shape := ⟨3, ![1, 512, 4096]⟩
abbrev S512x32 : Shape := ⟨2, ![512, 32]⟩
abbrev S512x16 : Shape := ⟨2, ![512, 16]⟩
abbrev S4096x16 : Shape := ⟨2, ![4096, 16]⟩
abbrev S512x4096 : Shape := ⟨2, ![512, 4096]⟩

abbrev nBuf : Space → Nat
  | .hbm => 6
  | .vmem => 16
  | .smem => 0
  | _ => 0

abbrev bufTy : (tb : Table) → Fin (tcTables nBuf tb) → BufTy
  | .hbm, ⟨0, _⟩ => ⟨S2x4096x128, .f32⟩
  | .hbm, ⟨1, _⟩ => ⟨S2x4096x4096, .f32⟩
  | .hbm, ⟨2, _⟩ => ⟨S128x32, .f32⟩
  | .hbm, ⟨3, _⟩ => ⟨S2x4096x32, .f32⟩
  | .hbm, ⟨4, _⟩ => ⟨S2x4096x4096, .f32⟩
  | .hbm, ⟨5, _⟩ => ⟨S2x4096x4096, .f32⟩
  | .local _ .vmem, ⟨0, _⟩ => ⟨S1x4096x128, .f32⟩
  | .local _ .vmem, ⟨1, _⟩ => ⟨S1x4096x128, .f32⟩
  | .local _ .vmem, ⟨2, _⟩ => ⟨S128x32, .f32⟩
  | .local _ .vmem, ⟨3, _⟩ => ⟨S1x1024x4096, .f32⟩
  | .local _ .vmem, ⟨4, _⟩ => ⟨S1x1024x4096, .f32⟩
  | .local _ .vmem, ⟨5, _⟩ => ⟨S1x1024x32, .f32⟩
  | .local _ .vmem, ⟨6, _⟩ => ⟨S1x1024x32, .f32⟩
  | .local _ .vmem, ⟨7, _⟩ => ⟨S4096x32, .f32⟩
  | .local _ .vmem, ⟨8, _⟩ => ⟨S1x512x32, .f32⟩
  | .local _ .vmem, ⟨9, _⟩ => ⟨S1x512x32, .f32⟩
  | .local _ .vmem, ⟨10, _⟩ => ⟨S1x4096x32, .f32⟩
  | .local _ .vmem, ⟨11, _⟩ => ⟨S1x4096x32, .f32⟩
  | .local _ .vmem, ⟨12, _⟩ => ⟨S1x512x4096, .f32⟩
  | .local _ .vmem, ⟨13, _⟩ => ⟨S1x512x4096, .f32⟩
  | .local _ .vmem, ⟨14, _⟩ => ⟨S1x512x4096, .f32⟩
  | .local _ .vmem, ⟨15, _⟩ => ⟨S1x512x4096, .f32⟩
  | _, _ => ⟨S2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_2 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 8, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x32_S128x32_0_0 : ∀ a, (![0, 0] : Fin 2 → Nat) a + S128x32.size a ≤ S128x32.size a
  h_S128x32 : 0 < S128x32.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  slices_S512x32_o0_0_S512x16 : S512x32.Slices ![0, 0] S512x16
  slices_S4096x32_o0_0_S4096x16 : S4096x32.Slices ![0, 0] S4096x16
  slices_S512x32_o0_16_S512x16 : S512x32.Slices ![0, 16] S512x16
  slices_S4096x32_o0_16_S4096x16 : S4096x32.Slices ![0, 16] S4096x16
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  dot_S4096x128_S128x32_S4096x32_1_0_0_1_n_n_wf : DotDims.WF S4096x128 S128x32 S4096x32 [1] [0] [0] [1] [] []
  dot_S1024x4096_S4096x32_S1024x32_1_0_0_1_n_n_wf : DotDims.WF S1024x4096 S4096x32 S1024x32 [1] [0] [0] [1] [] []
  dot_S512x16_S4096x16_S512x4096_1_1_0_0_n_n_wf : DotDims.WF S512x16 S4096x16 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S2x4096x128.size a
  hwx0_0 : ∀ i : grid0.Coords, EltTy.bits .f32 = 32 ∨ (Rect.block (s := S2x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x4096.size a ≤ S2x4096x4096.size a
  hwx0_2 : ∀ i : grid0.Coords, EltTy.bits .f32 = 32 ∨ (Rect.block (s := S2x4096x4096) S1x1024x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x32.size a ≤ S2x4096x32.size a
  hwx0_3 : ∀ i : grid0.Coords, EltTy.bits .f32 = 32 ∨ (Rect.block (s := S2x4096x32) S1x1024x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x32.size a ≤ S2x4096x32.size a
  hwx1_0 : ∀ i : grid1.Coords, EltTy.bits .f32 = 32 ∨ (Rect.block (s := S2x4096x32) S1x512x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x32.size a ≤ S2x4096x32.size a
  hwx1_1 : ∀ i : grid1.Coords, EltTy.bits .f32 = 32 ∨ (Rect.block (s := S2x4096x32) S1x4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x4096.size a ≤ S2x4096x4096.size a
  hwx1_2 : ∀ i : grid1.Coords, EltTy.bits .f32 = 32 ∨ (Rect.block (s := S2x4096x4096) S1x512x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x4096.size a ≤ S2x4096x4096.size a
  hwx1_3 : ∀ i : grid1.Coords, EltTy.bits .f32 = 32 ∨ (Rect.block (s := S2x4096x4096) S1x512x4096.size (cc1_transform_3 i) (hinb1_3 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S512x16_S4096x16_S512x4096_1_1_0_0_n_n : DotDims S512x16 S4096x16 S512x4096 where
  lhsContracting := [1]
  rhsContracting := [1]
  lhsNonContracting := [0]
  rhsNonContracting := [0]
  lhsBatch := []
  rhsBatch := []
  wf := dot_S512x16_S4096x16_S512x4096_1_1_0_0_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_2) S1x512x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_2) S1x4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x512x4096.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x4096x128 : Shape := ⟨3, ![2, 4096, 128]⟩
abbrev S2x4096x4096 : Shape := ⟨3, ![2, 4096, 4096]⟩
abbrev S128x32 : Shape := ⟨2, ![128, 32]⟩
abbrev S2x4096x32 : Shape := ⟨3, ![2, 4096, 32]⟩
abbrev S2x4096x16 : Shape := ⟨3, ![2, 4096, 16]⟩
abbrev S2x16x4096 : Shape := ⟨3, ![2, 16, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x128, .f32⟩
  | .hbm, ⟨1, _⟩ => ⟨S2x4096x4096, .f32⟩
  | .hbm, ⟨2, _⟩ => ⟨S128x32, .f32⟩
  | .hbm, ⟨3, _⟩ => ⟨S2x4096x32, .f32⟩
  | .hbm, ⟨4, _⟩ => ⟨S2x4096x32, .f32⟩
  | .hbm, ⟨5, _⟩ => ⟨S2x4096x16, .f32⟩
  | .hbm, ⟨6, _⟩ => ⟨S2x4096x16, .f32⟩
  | .hbm, ⟨7, _⟩ => ⟨S2x16x4096, .f32⟩
  | .hbm, ⟨8, _⟩ => ⟨S2x4096x4096, .f32⟩
  | .hbm, ⟨9, _⟩ => ⟨S_, .f32⟩
  | .hbm, ⟨10, _⟩ => ⟨S2x4096x4096, .f32⟩
  | .hbm, ⟨11, _⟩ => ⟨S2x4096x4096, .f32⟩
  | .hbm, ⟨12, _⟩ => ⟨S2x16x4096, .f32⟩
  | .hbm, ⟨13, _⟩ => ⟨S2x4096x4096, .f32⟩
  | .hbm, ⟨14, _⟩ => ⟨S_, .f32⟩
  | .hbm, ⟨15, _⟩ => ⟨S2x4096x4096, .f32⟩
  | .hbm, ⟨16, _⟩ => ⟨S2x4096x4096, .f32⟩
  | _, _ => ⟨S2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call1_cst : Ref sig .tc := ⟨.hbm, 14, rfl⟩
abbrev main_call1_v0 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  slices_S2x4096x32_S2x4096x16_0_0_0 : S2x4096x32.Slices ![0, 0, 0] S2x4096x16
  slices_S2x4096x32_S2x4096x16_0_0_16 : S2x4096x32.Slices ![0, 0, 16] S2x4096x16
  transposes_S2x4096x16_S2x16x4096_0_2_1 : S2x4096x16.Transposes [0, 2, 1] S2x16x4096
  bcast_S_S2x4096x4096 : S_.BroadcastsInDim S2x4096x4096 (![] : Fin 0 → Fin S2x4096x4096.rank)
  dot_S2x4096x128_S128x32_S2x4096x32_2_0_01_1_n_n_wf : DotDims.WF S2x4096x128 S128x32 S2x4096x32 [2] [0] [0, 1] [1] [] []
  dot_S2x4096x4096_S2x4096x32_S2x4096x32_2_1_1_2_0_0_wf : DotDims.WF S2x4096x4096 S2x4096x32 S2x4096x32 [2] [1] [1] [2] [0] [0]
  dot_S2x4096x16_S2x16x4096_S2x4096x4096_2_1_1_2_0_0_wf : DotDims.WF S2x4096x16 S2x16x4096 S2x4096x4096 [2] [1] [1] [2] [0] [0]

variable [Facts₀]

def dot_S2x4096x128_S128x32_S2x4096x32_2_0_01_1_n_n : DotDims S2x4096x128 S128x32 S2x4096x32 where
  lhsContracting := [2]
  rhsContracting := [0]
  lhsNonContracting := [0, 1]
  rhsNonContracting := [1]
  lhsBatch := []
  rhsBatch := []
  wf := dot_S2x4096x128_S128x32_S2x4096x32_2_0_01_1_n_n_wf
def dot_S2x4096x4096_S2x4096x32_S2x4096x32_2_1_1_2_0_0 : DotDims S2x4096x4096 S2x4096x32 S2x4096x32 where
  lhsContracting := [2]
  rhsContracting := [1]
  lhsNonContracting := [1]
  rhsNonContracting := [2]
  lhsBatch := [0]
  rhsBatch := [0]
  wf := dot_S2x4096x4096_S2x4096x32_S2x4096x32_2_1_1_2_0_0_wf
def dot_S2x4096x16_S2x16x4096_S2x4096x4096_2_1_1_2_0_0 : DotDims S2x4096x16 S2x16x4096 S2x4096x4096 where
  lhsContracting := [2]
  rhsContracting := [1]
  lhsNonContracting := [1]
  rhsNonContracting := [2]
  lhsBatch := [0]
  rhsBatch := [0]
  wf := dot_S2x4096x16_S2x16x4096_S2x4096x4096_2_1_1_2_0_0_wf

class Facts : Prop extends Facts₀ where

variable [Facts]
-- ==== Proof.KFrEnc.lean ====
/-
  The encoder's body as two triples, one per way its one conditional goes.

  At the first row-block of a batch (the conditional taken) the body first stores the support x[b] @ W into the
  scratch, whatever the scratch held; at every point it then loads the scratch whole and stores adj-block @ scratch into
  the output block. So on whole buffers the body leaves the three input blocks as they were, the scratch at the support
  it computed (taken) or found (not taken), and the output block at the product with that support.
-/
import proofs.«161750_g53850299957773_cont_9to1_m_306_6_alg».proof.Proof.Gen.Kernel.Launch
import proofs.«161750_g53850299957773_cont_9to1_m_306_6_alg».proof.Proof.Gen.Kernel.Skeleton
import proofs.«161750_g53850299957773_cont_9to1_m_306_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The encoder's accesses: each a whole block at zero offsets -/

abbrev rE_x : Rect S1x4096x128 := Rect.unit (s := S1x4096x128) ![0, 0, 0] S1x4096x128.size inb_S1x4096x128_S1x4096x128_0_0_0
abbrev rE_w : Rect S128x32 := Rect.unit (s := S128x32) ![0, 0] S128x32.size inb_S128x32_S128x32_0_0
abbrev rE_a : Rect S1x1024x4096 := Rect.unit (s := S1x1024x4096) ![0, 0, 0] S1x1024x4096.size inb_S1x1024x4096_S1x1024x4096_0_0_0
abbrev rE_h : Rect S1x1024x32 := Rect.unit (s := S1x1024x32) ![0, 0, 0] S1x1024x32.size inb_S1x1024x32_S1x1024x32_0_0_0
abbrev rE_s : Rect S4096x32 := Rect.unit (s := S4096x32) ![0, 0] S4096x32.size inb_S4096x32_S4096x32_0_0

/-- The branch condition, from the grid coordinates: the row-block coordinate is zero. -/
abbrev condE (i : grid0.Coords) : Prop :=
  (Scalar.cmpi .ne (Scalar.extui (Scalar.cmpi .eq (BitVec.ofNat 32 (i 1).val) 0#32)) 0#32) = 1#1

/-- The support the taken branch stores into the scratch, over the x block and the W block. -/
def outE_s (x0 : Vec F S1x4096x128 .f32) (x1 : Vec F S128x32 .f32) : Vec F S4096x32 .f32 :=
  View.canon [⟨rE_s, k0_pay1 (View.ld x0 rE_x) (View.ld x1 rE_w)⟩]
/-- The output block: the adj block times the scratch's contents `s`. -/
def outE_h (x2 : Vec F S1x1024x4096 .f32) (s : Vec F S4096x32 .f32) : Vec F S1x1024x32 .f32 :=
  View.canon [⟨rE_h, k0_pay2 (View.ld x2 rE_a) (View.ld s rE_s)⟩]

theorem coverE_h (p0 : Vec F S1x1024x32 .f32) (y : S1x1024x32.Idx) :
    ∃ pc ∈ ([⟨rE_h, p0⟩] : List (View.Piece (Elt F) S1x1024x32 .f32)), y ∈ pc.1.set :=
  View.cover_of_tiled [⟨rE_h, p0⟩] S1x1024x32.size (by rfl) y
theorem coverE_s (p0 : Vec F S4096x32 .f32) (y : S4096x32.Idx) :
    ∃ pc ∈ ([⟨rE_s, p0⟩] : List (View.Piece (Elt F) S4096x32 .f32)), y ∈ pc.1.set :=
  View.cover_of_tiled [⟨rE_s, p0⟩] S4096x32.size (by rfl) y

set_option maxHeartbeats 1000000 in
/-- The conditional not taken: the scratch is read at the contents `s` it holds and kept. -/
theorem sound_enc_rest (c : Dev nD) (E : Set ℕ) (i : grid0.Coords) (hc : ¬condE i)
    (arg2 : Memref sig .tc .vmem S1x4096x128 .f32) (harg2 : arg2.IsWhole) (arg3 : Memref sig .tc .vmem S128x32 .f32) (harg3 : arg3.IsWhole)
    (arg4 : Memref sig .tc .vmem S1x1024x4096 .f32) (harg4 : arg4.IsWhole) (arg5 : Memref sig .tc .vmem S1x1024x32 .f32) (harg5 : arg5.IsWhole)
    (arg6 : Memref sig .tc .vmem S4096x32 .f32) (harg6 : arg6.IsWhole)
    (x0 : Vec F S1x4096x128 .f32) (x1 : Vec F S128x32 .f32) (x2 : Vec F S1x1024x4096 .f32) (s : Vec F S4096x32 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (outE_h x2 s) ∗ owns (c : Thread nD τ) arg6 fullShare s) -∗ K ⟨⟩))
      ⊢ wp frame (wpE (defs₀ (F := F)) Variants.none c none) E (cc0__encoder_body i arg2 harg2 arg3 harg3 arg4 harg4 arg5 harg5 arg6 harg6) K := by
  simp only [cc0__encoder_body_eq_skeleton]; unfold cc0__encoder_body_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverE_h _)
  iexists f4; isplitr; · ipureintro; rfl
  iexact H4

set_option maxHeartbeats 1000000 in
/-- The conditional taken: the scratch, at anything, is first stored whole with the support. -/
theorem sound_enc_first (c : Dev nD) (E : Set ℕ) (i : grid0.Coords) (hc : condE i)
    (arg2 : Memref sig .tc .vmem S1x4096x128 .f32) (harg2 : arg2.IsWhole) (arg3 : Memref sig .tc .vmem S128x32 .f32) (harg3 : arg3.IsWhole)
    (arg4 : Memref sig .tc .vmem S1x1024x4096 .f32) (harg4 : arg4.IsWhole) (arg5 : Memref sig .tc .vmem S1x1024x32 .f32) (harg5 : arg5.IsWhole)
    (arg6 : Memref sig .tc .vmem S4096x32 .f32) (harg6 : arg6.IsWhole)
    (x0 : Vec F S1x4096x128 .f32) (x1 : Vec F S128x32 .f32) (x2 : Vec F S1x1024x4096 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outE_h x2 (outE_s x0 x1)) ∗ owns (c : Thread nD τ) arg6 fullShare (outE_s x0 x1)) -∗ K ⟨⟩))
      ⊢ wp frame (wpE (defs₀ (F := F)) Variants.none c none) E (cc0__encoder_body i arg2 harg2 arg3 harg3 arg4 harg4 arg5 harg5 arg6 harg6) K := by
  simp only [cc0__encoder_body_eq_skeleton]; unfold cc0__encoder_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    -- the load after the store reads the stored support back: both sides are the one store over that support
    rw [View.read_writes_eq_canon _ _ _ (coverE_h _)]
    sl_unfold_run_names
    unfold outE_h outE_s
    have hz2 : (![0, 0] : Fin S4096x32.rank → Nat) = fun _ => 0 := by funext a; fin_cases a <;> rfl
    simp only [View.readAt_eq_ld, View.readCov_unit_zero (S := S4096x32) _ hz2, View.canon_unit_zero (S := S4096x32) hz2,
      View.ld_unit_zero (S := S4096x32) hz2]
  iexists _; isplitr
  swap; · iexact H4
  ipureintro
  exact View.read_writes_eq_canon _ _ _ (coverE_s _)

end Cert.Kernel.Gen

end
-- ==== Proof.KFrDat0.lean ====
/-
  Region 0 (the encoder) as proof data for the pipeline, at the buffer contents `V` the region is entered with.

  A grid point is (batch, row-block), four row-blocks to a batch. The x block and the W block of a point are read off
  the arrays; the scratch holds, after a point, the support of that point's batch: computed at the batch's first
  row-block from the x and W blocks there, and carried unchanged through its other three — a recursion on the point.
  The output block after a point is the adj block times that scratch. The region's invariant is: before the first
  point every scoped buffer at anything; after point n the scratch at the support just described, the other scoped
  buffers at anything.
-/
import proofs.«161750_g53850299957773_cont_9to1_m_306_6_alg».proof.Proof.Gen.Kernel.Launch
import proofs.«161750_g53850299957773_cont_9to1_m_306_6_alg».proof.Proof.Gen.Kernel.Skeleton
import proofs.«161750_g53850299957773_cont_9to1_m_306_6_alg».proof.Proof.Gen.Kernel.Points
import proofs.«161750_g53850299957773_cont_9to1_m_306_6_alg».proof.Proof.KFrEnc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition over the grid -/

/-- The conditional is taken exactly at a batch's first row-block: the points ≡ 0 (mod 4). -/
theorem hcondE : ∀ t : Fin cfg0.N, condE (grid0.coords t) ↔ t.val % 4 = 0 :=
  (by decide +kernel : ∀ t : Fin grid0.N, condE (grid0.coords t) ↔ t.val % 4 = 0)

/-! ## The scratch after each point -/

/-- The scratch memref the body is passed. -/
abbrev scM : Memref sig .tc .vmem S4096x32 .f32 := Memref.whole cc0_scratch0

/-- What the scratch holds after point `n`: the support computed at the first row-block of `n`'s batch. -/
def scrAt (c : Dev nD) : (n : ℕ) → n < cfg0.N → Vec F S4096x32 .f32
  | 0, hn => outE_s (iblk0 V c 0 ⟨0, hn⟩) (iblk0 V c 1 ⟨0, hn⟩)
  | n + 1, hn =>
    if (n + 1) % 4 = 0 then outE_s (iblk0 V c 0 ⟨n + 1, hn⟩) (iblk0 V c 1 ⟨n + 1, hn⟩)
    else scrAt c n (Nat.lt_of_succ_lt hn)

/-- At a batch's first row-block the scratch is stored afresh. -/
theorem scrAt_first (c : Dev nD) (t : Fin cfg0.N) (h : t.val % 4 = 0) :
    scrAt V c t.val t.isLt = outE_s (iblk0 V c 0 t) (iblk0 V c 1 t) := by
  obtain ⟨n, hn⟩ := t
  cases n with
  | zero => rfl
  | succ n => exact if_pos h

/-- At the other row-blocks it is what the point before left. -/
theorem scrAt_rest (c : Dev nD) (t : Fin cfg0.N) (h : ¬t.val % 4 = 0) :
    scrAt V c t.val t.isLt = scrAt V c (t.val - 1) (Nat.lt_of_le_of_lt (Nat.sub_le _ _) t.isLt) := by
  obtain ⟨n, hn⟩ := t
  cases n with
  | zero => exact absurd (Nat.zero_mod _) h
  | succ n => exact if_neg h

/-! ## The invariant -/

/-- The scoped buffers other than the scratch (the decoder's staging buffers), each whole at anything. -/
def restE (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant before the first point — every scoped buffer that is no staging buffer of this region at anything,
    the generator register at some state — with the scratch spelt as a memref owned at some contents. -/
theorem PhiA0_eq (c : Dev nD) :
    (Pipeline.ΦA spec0 c : sProp 𝕄)
      = iprop(((∃ d, owns (c : Thread nD τ) scM fullShare d) ∗ restE c) ∗ (∃ r, prngReg c r)) := by
  unfold Pipeline.ΦA restE; rw [scopedRest0_eq]; simp only [scM, owns_whole]; try rfl

/-- The invariant before position `n`. -/
def PhiS0 (c : Dev nD) : (n : ℕ) → n ≤ cfg0.N → sProp 𝕄
  | 0, _ => Pipeline.ΦA spec0 c
  | n + 1, hn => iprop((owns (c : Thread nD τ) scM fullShare (scrAt V c n hn) ∗ restE c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM fullShare (scrAt V c n hn) ∗ restE c) ∗ (∃ r, prngReg c r)) := rfl
theorem PhiS0_pos (c : Dev nD) (n : ℕ) (h : n ≤ cfg0.N) (hz : n ≠ 0) :
    PhiS0 V c n h = iprop((owns (c : Thread nD τ) scM fullShare (scrAt V c (n - 1) (by omega)) ∗ restE c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outE_h (iblk0 V c 2 t) (scrAt V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = outE_h (iblk0 V c 2 t) (scrAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- The body at any point. The input buffers hold their blocks; the closed form of the condition says which way the
    conditional goes; the invariant hands the body the scratch (at anything before the first point, at what the point
    before left afterwards) and takes it back at this point's support. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, after0_0, after0_1, after0_2, after0_3]
  have hN : t.val < 8 := lt_of_lt_of_eq t.isLt (show cfg0.N = 8 from N_0)
  by_cases h0 : t.val % 4 = 0
  · rw [scrAt_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (sound_enc_first c Set.univ (grid0.coords t) ((hcondE t).mpr h0) _ _ _ _ _ _ _ _ _ _ (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (sound_enc_first c Set.univ (grid0.coords t) ((hcondE t).mpr h0) _ _ _ _ _ _ _ _ _ _ (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · rw [scrAt_rest V c t h0]
    have hz : t.val ≠ 0 := fun h => h0 (by rw [h])
    rw [PhiS0_castSucc V c t, PhiS0_pos V c _ _ hz]
    iintro ⟨⟨⟨HS, HR⟩, Hg⟩, Ho, ⟨%d0, H0⟩, ⟨%d1, H1⟩, ⟨%d2, H2⟩, ⟨%d3, H3⟩⟩
    iapply (sound_enc_rest c Set.univ (grid0.coords t) (fun h => h0 ((hcondE t).mp h)) _ _ _ _ _ _ _ _ _ _ (iblk0 V c 0 t) (iblk0 V c 1 t) (iblk0 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back the one it started from: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega), PhiA0_eq]
  iintro ⟨⟨HS, HR⟩, Hg⟩
  isplitl [HS HR]
  · isplitl [HS]; · iexists _; iexact HS
    iexact HR
  iexact Hg

end Region0

end Cert.Kernel.Gen

end
-- ==== Proof.KFrDec.lean ====
/-
  The decoder's body as a triple. On whole staging buffers — the two input blocks at given contents, the two output
  blocks at anything — the body runs to the end leaving the inputs as they were and each output block at the one value
  its single store wrote: the floored product of the first (second) halves of the two input blocks' feature columns.
-/
import proofs.«161750_g53850299957773_cont_9to1_m_306_6_alg».proof.Proof.Gen.Kernel.Launch
import proofs.«161750_g53850299957773_cont_9to1_m_306_6_alg».proof.Proof.Gen.Kernel.Skeleton
import proofs.«161750_g53850299957773_cont_9to1_m_306_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The decoder's accesses: each a whole block at zero offsets -/

abbrev rD_0 : Rect S1x512x32 := Rect.unit (s := S1x512x32) ![0, 0, 0] S1x512x32.size inb_S1x512x32_S1x512x32_0_0_0
abbrev rD_1 : Rect S1x4096x32 := Rect.unit (s := S1x4096x32) ![0, 0, 0] S1x4096x32.size inb_S1x4096x32_S1x4096x32_0_0_0
abbrev rD_o : Rect S1x512x4096 := Rect.unit (s := S1x512x4096) ![0, 0, 0] S1x512x4096.size inb_S1x512x4096_S1x512x4096_0_0_0

/-- What the body leaves in the first output block: its one store, over the two input blocks. -/
def outD_2 (x0 : Vec F S1x512x32 .f32) (x1 : Vec F S1x4096x32 .f32) : Vec F S1x512x4096 .f32 :=
  View.canon [⟨rD_o, k1_pay3 (View.ld x0 rD_0) (View.ld x1 rD_1)⟩]
/-- What the body leaves in the second output block. -/
def outD_3 (x0 : Vec F S1x512x32 .f32) (x1 : Vec F S1x4096x32 .f32) : Vec F S1x512x4096 .f32 :=
  View.canon [⟨rD_o, k1_pay4 (View.ld x0 rD_0) (View.ld x1 rD_1)⟩]

/-- One store of the whole block tiles the block. -/
theorem coverD (p0 : Vec F S1x512x4096 .f32) (y : S1x512x4096.Idx) :
    ∃ pc ∈ ([⟨rD_o, p0⟩] : List (View.Piece (Elt F) S1x512x4096 .f32)), y ∈ pc.1.set :=
  View.cover_of_tiled [⟨rD_o, p0⟩] S1x512x4096.size (by rfl) y

set_option maxHeartbeats 1000000 in
theorem sound_dec (c : Dev nD) (E : Set ℕ) (i : grid1.Coords)
    (arg3 : Memref sig .tc .vmem S1x512x32 .f32) (harg3 : arg3.IsWhole) (arg4 : Memref sig .tc .vmem S1x4096x32 .f32) (harg4 : arg4.IsWhole)
    (arg5 : Memref sig .tc .vmem S1x512x4096 .f32) (harg5 : arg5.IsWhole) (arg6 : Memref sig .tc .vmem S1x512x4096 .f32) (harg6 : arg6.IsWhole)
    (x0 : Vec F S1x512x32 .f32) (x1 : Vec F S1x4096x32 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (outD_2 x0 x1) ∗ owns (c : Thread nD τ) arg6 fullShare (outD_3 x0 x1)) -∗ K ⟨⟩))
      ⊢ wp frame (wpE (defs₀ (F := F)) Variants.none c none) E (cc1__decoder_body i arg3 harg3 arg4 harg4 arg5 harg5 arg6 harg6) K := by
  simp only [cc1__decoder_body_eq_skeleton]; unfold cc1__decoder_body_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverD _)
  iexists _; isplitr
  swap; · iexact H3
  ipureintro
  exact View.read_writes_eq_canon _ _ _ (coverD _)

end Cert.Kernel.Gen

end
-- ==== Proof.KFrDat1.lean ====
/-
  Region 1 (the decoder) as proof data for the pipeline, at the buffer contents `V` the region is entered with.

  A grid point is (batch, row-block of 512 rows, the one column-block). The two input windows read one array — the hidden
  features — a 512-row block and a batch's whole 4096 rows; each holds the array at one half of the full share. After
  the body the two output blocks hold the floored products of the two halves of the feature columns. The body keeps
  nothing between points: the invariant is every scoped buffer that is no staging buffer of this region at anything.
-/
import proofs.«161750_g53850299957773_cont_9to1_m_306_6_alg».proof.Proof.Gen.Kernel.Launch
import proofs.«161750_g53850299957773_cont_9to1_m_306_6_alg».proof.Proof.Gen.Kernel.Skeleton
import proofs.«161750_g53850299957773_cont_9to1_m_306_6_alg».proof.Proof.Gen.Kernel.Points
import proofs.«161750_g53850299957773_cont_9to1_m_306_6_alg».proof.Proof.KFrDec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data: each input's buffer at its block, each output's at the body's store over the two input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outD_2 (iblk1 V c 0 t) (iblk1 V c 1 t)
    | ⟨3, _⟩ => outD_3 (iblk1 V c 0 t) (iblk1 V c 1 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = outD_2 (iblk1 V c 0 t) (iblk1 V c 1 t) := by dsimp only [dat1]
theorem after1_3 (c : Dev nD) (t : Fin cfg1.N) :
    (dat1 V c).after 3 t = outD_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The shares the four windows hold their arrays at: the two halves for the two readers of the hidden features, the
    whole for each output. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_dec c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.KFrSplit1.lean ====
/-
  Region 1 reads one array through two windows. The pipeline holds an array once per window, an input window's at that
  window's share; so the one buffer behind the two reading windows, held whole at the full share outside the region,
  is held inside it as its two half shares, one per window, and the two output arrays at the full share each. This
  module states that splitting and its inverse.
-/
import proofs.«161750_g53850299957773_cont_9to1_m_306_6_alg».proof.Proof.Gen.Kernel.Launch
import proofs.«161750_g53850299957773_cont_9to1_m_306_6_alg».proof.Proof.Gen.Kernel.Skeleton
import proofs.«161750_g53850299957773_cont_9to1_m_306_6_alg».proof.Proof.Gen.Kernel.Points
import proofs.«161750_g53850299957773_cont_9to1_m_306_6_alg».proof.Proof.KFrDat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Split1

variable (V : (c : Dev nD) → (b : Ref sig .tc) → Buf (Elt F) ((c : Thread nD τ).loc b))

/-- The three distinct buffers behind region 1's four windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_2) ↦{fullShare} W main_v0_2) ∗ (((c : Thread nD τ).loc main_v0_0) ↦{fullShare} W main_v0_0)
          ∗ (((c : Thread nD τ).loc main_v0_1) ↦{fullShare} W main_v0_1)) := by
  unfold Pipeline.arrBufs
  rw [show Finset.univ.image (Pipeline.arrRef spec1) = insert main_v0_2 (insert main_v0_0 {main_v0_1}) from by decide,
    bigSep_insert (by decide), bigSep_insert (by decide), bigSep_singleton]
  rfl

/-- The pipeline's arrays, window by window: the hidden features at the two halves, each output whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_2) ↦{fullShare.left} G 0) ∗ (((c : Thread nD τ).loc main_v0_2) ↦{fullShare.right} G 1)
          ∗ (((c : Thread nD τ).loc main_v0_0) ↦{fullShare} G 2) ∗ (((c : Thread nD τ).loc main_v0_1) ↦{fullShare} G 3)) := by
  unfold Dat.arrays
  -- (windows 0 and 1 are over one array: one rewrite serves both)
  rw [bigSep_W1, (arr_whole1 0).set_eq_univ, (arr_whole1 2).set_eq_univ, (arr_whole1 3).set_eq_univ,
    share1_0, share1_1, share1_2, share1_3]

/-- ENTRY: the buffers whole make the windows' arrays, the shared one split into its halves. -/
theorem split1 (c : Dev nD) (W : (b : Ref sig .tc) → Buf (Elt F) ((c : Thread nD τ).loc b))
    (G : (w : Fin cfg1.W) → Buf (Elt F) ((cfg1.win w).arr.view.loc (c : Thread nD τ)))
    (h0 : G 0 = W main_v0_2) (h1 : G 1 = W main_v0_2) (h2 : G 2 = W main_v0_0) (h3 : G 3 = W main_v0_1) :
    (Pipeline.arrBufs (Ix := Unit) (Name := ℕ) (U := UR sig nD τ) (Lvl := ℕ) spec1 c W : sProp 𝕄) ⊢ (dat1 V c).arrays G := by
  rw [arrBufs1_eq, arrays1_eq, h0, h1, h2, h3]
  iintro ⟨Hh, Hm, Hs⟩
  ihave Hh' := (pointsTo_share (PosShare.mem_left_op_right fullShare)).1 $$ Hh
  icases Hh' with ⟨Hl, Hr⟩
  isplitl [Hl]; · iexact Hl
  isplitl [Hr]; · iexact Hr
  isplitl [Hm]; · iexact Hm
  iexact Hs

/-- EXIT: the halves, still at one contents, make the buffer whole again. -/
theorem join1 (c : Dev nD) (W : (b : Ref sig .tc) → Buf (Elt F) ((c : Thread nD τ).loc b))
    (G : (w : Fin cfg1.W) → Buf (Elt F) ((cfg1.win w).arr.view.loc (c : Thread nD τ)))
    (h0 : G 0 = W main_v0_2) (h1 : G 1 = W main_v0_2) (h2 : G 2 = W main_v0_0) (h3 : G 3 = W main_v0_1) :
    ((dat1 V c).arrays G : sProp 𝕄) ⊢ Pipeline.arrBufs (Ix := Unit) (Name := ℕ) (U := UR sig nD τ) (Lvl := ℕ) spec1 c W := by
  rw [arrBufs1_eq, arrays1_eq, h0, h1, h2, h3]
  iintro ⟨Hl, Hr, Hm, Hs⟩
  isplitl [Hl Hr]
  · iapply (pointsTo_share (PosShare.mem_left_op_right fullShare)).2
    isplitl [Hl]; · iexact Hl
    iexact Hr
  isplitl [Hm]; · iexact Hm
  iexact Hs

end Split1

end Cert.Kernel.Gen

end
-- ==== Proof.KFrRun.lean ====
/-
  The whole run of the program's two regions, at any instance of the float operations.

  The unscoped buffers are followed through the program as three valuations: the launch contents; those with the
  hidden-features array replaced by what region 0's write-backs leave; those with the two decoder arrays replaced by
  what region 1's write-backs leave. Each region is entered holding every unscoped buffer whole at the valuation before
  it and left holding them at the valuation after it. Region 1 reads the hidden-features array through two windows:
  at its entry that one buffer is split into its two half shares, one per window, and at its exit the halves are joined
  again (the windows never write it). The run ends with every unscoped buffer at the last valuation, from which the
  three argument arrays read back their launch contents and the three results what the regions wrote.
-/
import proofs.«161750_g53850299957773_cont_9to1_m_306_6_alg».proof.Proof.Gen.Kernel.Launch
import proofs.«161750_g53850299957773_cont_9to1_m_306_6_alg».proof.Proof.Gen.Kernel.Skeleton
import proofs.«161750_g53850299957773_cont_9to1_m_306_6_alg».proof.Proof.Gen.Kernel.Points
import proofs.«161750_g53850299957773_cont_9to1_m_306_6_alg».proof.Proof.KFrDat0
import proofs.«161750_g53850299957773_cont_9to1_m_306_6_alg».proof.Proof.KFrDat1
import proofs.«161750_g53850299957773_cont_9to1_m_306_6_alg».proof.Proof.KFrSplit1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev VR0 : (c : Dev nD) → (b : Ref sig .tc) → Buf (Elt F) ((c : Thread nD τ).loc b) := fun c b => W0 m c b

/-- What region 0 leaves in the hidden-features array. -/
def arrH (c : Dev nD) : Buf (Elt F) ((c : Thread nD τ).loc main_v0_2) := (dat0 (VR0 m) c).arrAt 3 cfg0.N

/-- After region 0: the hidden-features array at what its write-backs leave, every other buffer as launched. -/
def W1 (c : Dev nD) : Valuation τ sig (Elt F) := Function.update (W0 m c) main_v0_2 (arrH m c)
abbrev VR1 : (c : Dev nD) → (b : Ref sig .tc) → Buf (Elt F) ((c : Thread nD τ).loc b) := fun c b => W1 m c b

/-- What region 1 leaves in the two decoder arrays. -/
def arrMu (c : Dev nD) : Buf (Elt F) ((c : Thread nD τ).loc main_v0_0) := (dat1 (VR1 m) c).arrAt 2 cfg1.N
def arrSg (c : Dev nD) : Buf (Elt F) ((c : Thread nD τ).loc main_v0_1) := (dat1 (VR1 m) c).arrAt 3 cfg1.N

/-- After region 1. -/
def W2 (c : Dev nD) : Valuation τ sig (Elt F) :=
  Function.update (Function.update (W1 m c) main_v0_0 (arrMu m c)) main_v0_1 (arrSg m c)
abbrev VR2 : (c : Dev nD) → (b : Ref sig .tc) → Buf (Elt F) ((c : Thread nD τ).loc b) := fun c b => W2 m c b

theorem W1_h (c : Dev nD) : W1 m c (Proc.devRef .tc main_v0_2) = arrH m c := by
  unfold W1; exact Function.update_self ..
theorem W1_of_ne (c : Dev nD) (b : Ref sig .tc) (hb : b ≠ main_v0_2) : W1 m c (Proc.devRef .tc b) = W0 m c (Proc.devRef .tc b) := by
  unfold W1; exact Function.update_of_ne (StableHlo.devRef_ne_of_ne hb) ..
theorem W2_sg (c : Dev nD) : W2 m c (Proc.devRef .tc main_v0_1) = arrSg m c := by
  unfold W2; exact Function.update_self ..
theorem W2_mu (c : Dev nD) : W2 m c (Proc.devRef .tc main_v0_0) = arrMu m c := by
  unfold W2; rw [Function.update_of_ne (StableHlo.devRef_ne_of_ne (by decide))]; exact Function.update_self ..
theorem W2_of_ne (c : Dev nD) (b : Ref sig .tc) (h0 : b ≠ main_v0_0) (h1 : b ≠ main_v0_1) :
    W2 m c (Proc.devRef .tc b) = W1 m c (Proc.devRef .tc b) := by
  unfold W2; rw [Function.update_of_ne (StableHlo.devRef_ne_of_ne h1), Function.update_of_ne (StableHlo.devRef_ne_of_ne h0)]

/-- The arguments and the hidden features at the end. -/
theorem W2_arg0 (c : Dev nD) : W2 m c (Proc.devRef .tc main_arg0) = m ((c : Thread nD τ).loc main_arg0) :=
  (W2_of_ne m c main_arg0 (by decide) (by decide)).trans ((W1_of_ne m c main_arg0 (by decide)).trans rfl)
theorem W2_arg1 (c : Dev nD) : W2 m c (Proc.devRef .tc main_arg1) = m ((c : Thread nD τ).loc main_arg1) :=
  (W2_of_ne m c main_arg1 (by decide) (by decide)).trans ((W1_of_ne m c main_arg1 (by decide)).trans rfl)
theorem W2_arg2 (c : Dev nD) : W2 m c (Proc.devRef .tc main_arg2) = m ((c : Thread nD τ).loc main_arg2) :=
  (W2_of_ne m c main_arg2 (by decide) (by decide)).trans ((W1_of_ne m c main_arg2 (by decide)).trans rfl)
theorem W2_h (c : Dev nD) : W2 m c (Proc.devRef .tc main_v0_2) = arrH m c :=
  (W2_of_ne m c main_v0_2 (by decide) (by decide)).trans (W1_h m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## Region 0 -/

theorem hF0 (c : Dev nD) (w : Fin cfg0.W) : (dat0 (VR0 m) c).arrAt w cfg0.N = VR1 m c (Pipeline.arrRef spec0 w) := by
  match w with
  | ⟨0, _⟩ => exact ((dat0 (VR0 m) c).arrAt_in 0 rfl _).trans ((A_eq0 (VR0 m) c 0).trans (W1_of_ne m c main_arg0 (by decide)).symm)
  | ⟨1, _⟩ => exact ((dat0 (VR0 m) c).arrAt_in 1 rfl _).trans ((A_eq0 (VR0 m) c 1).trans (W1_of_ne m c main_arg2 (by decide)).symm)
  | ⟨2, _⟩ => exact ((dat0 (VR0 m) c).arrAt_in 2 rfl _).trans ((A_eq0 (VR0 m) c 2).trans (W1_of_ne m c main_arg1 (by decide)).symm)
  | ⟨3, _⟩ => exact (W1_h m c).symm
theorem hrest0 (c : Dev nD) : ∀ b, b ∉ Finset.univ.image (Pipeline.arrRef spec0) → VR1 m c b = VR0 m c b :=
  fun b hb => W1_of_ne m c b fun e => hb (Finset.mem_image.mpr ⟨3, Finset.mem_univ _, e.symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR0 m) c)
    unfold Pipeline.ΦA
    iintro ⟨Hp, -, Hr⟩
    isplitl [Hr]; · iexact Hr
    iexact Hp
  hout c := by
    rw [Pipeline.ownSems0_none]
    refine BIBase.Entails.trans (hout0 (VR0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VR1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- The two reading windows' array is never written by the region: at the end it is what it was at entry, which is
    also what the last valuation has for it. -/
theorem hG1_0 (c : Dev nD) : (dat1 (VR1 m) c).arrAt 0 cfg1.N = VR2 m c main_v0_2 :=
  ((dat1 (VR1 m) c).arrAt_in 0 rfl _).trans ((A_eq1 (VR1 m) c 0).trans ((W1_h m c).trans (W2_h m c).symm))
theorem hG1_1 (c : Dev nD) : (dat1 (VR1 m) c).arrAt 1 cfg1.N = VR2 m c main_v0_2 :=
  ((dat1 (VR1 m) c).arrAt_in 1 rfl _).trans ((A_eq1 (VR1 m) c 1).trans ((W1_h m c).trans (W2_h m c).symm))

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hub : (StableHlo.held (c : Thread nD τ) (Pipeline.ucRefs τ sig) (W1 m c) : sProp 𝕄)
        = iprop(Pipeline.arrBufs (Ix := Unit) (Name := ℕ) (U := UR sig nD τ) (Lvl := ℕ) spec1 c (VR1 m c)
            ∗ Pipeline.unscopedRest (Ix := Unit) (Name := ℕ) (U := UR sig nD τ) (Lvl := ℕ) spec1 c (VR1 m c)) := by
      rw [← Pipeline.unscopedBufs_held]
      exact Pipeline.unscopedBufs_split₀ cfgs 1 winFacts₀1.arr_unscoped c (VR1 m c)
    rw [hub]
    iintro ⟨⟨⟨Hab, Hrest⟩, Hp, HO⟩, -, -⟩
    ihave Ha := (split1 (VR1 m) c (VR1 m c) ((pdats m 1 c).arrAt · 0) rfl rfl rfl rfl) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (W2 m c) : sProp 𝕄)
        = iprop(Pipeline.arrBufs (Ix := Unit) (Name := ℕ) (U := UR sig nD τ) (Lvl := ℕ) spec1 c (VR2 m c)
            ∗ Pipeline.unscopedRest (Ix := Unit) (Name := ℕ) (U := UR sig nD τ) (Lvl := ℕ) spec1 c (VR2 m c)) := by
      rw [← Pipeline.unscopedBufs_held]
      exact Pipeline.unscopedBufs_split₀ cfgs 1 winFacts₀1.arr_unscoped c (VR2 m c)
    -- off the region's arrays the two valuations agree
    have hrest : (Pipeline.unscopedRest (Ix := Unit) (Name := ℕ) (U := UR sig nD τ) (Lvl := ℕ) spec1 c (VR2 m c) : sProp 𝕄)
        = Pipeline.unscopedRest (Ix := Unit) (Name := ℕ) (U := UR sig nD τ) (Lvl := ℕ) spec1 c (VR1 m c) := by
      unfold Pipeline.unscopedRest
      exact bigSep_congr fun b hb => by
        have e : VR2 m c b = VR1 m c b :=
          W2_of_ne m c b (fun e => (Finset.mem_sdiff.mp hb).2 (Finset.mem_image.mpr ⟨2, Finset.mem_univ _, e.symm⟩))
            (fun e => (Finset.mem_sdiff.mp hb).2 (Finset.mem_image.mpr ⟨3, Finset.mem_univ _, e.symm⟩))
        rw [e]
    unfold Tₙ
    rw [hub, hrest]
    iintro ⟨Ha, HO, HY, Hrest⟩
    have hj : ((pdats m 1 c).arrays (fun x => (pdats m 1 c).arrAt x (Pipeline.pin (pcfgs (F := F)) adm 1).N) : sProp 𝕄)
        ⊢ Pipeline.arrBufs (Ix := Unit) (Name := ℕ) (U := UR sig nD τ) (Lvl := ℕ) spec1 c (VR2 m c) :=
      join1 (VR1 m) c (VR2 m c) ((dat1 (VR1 m) c).arrAt · cfg1.N) (hG1_0 m c) (hG1_1 m c) (W2_mu m c).symm (W2_sg m c).symm
    ihave Hab := hj $$ Ha
    imodintro
    isplitl [Hab Hrest HY]
    · isplitl [Hab Hrest]
      · isplitl [Hab]; · iexact Hab
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state holds every unscoped buffer at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The same, read at the six arrays the claims speak of. -/
theorem run_arrays : θ_run defs (onTc (τ := τ) (main (F := F))) ⟨m, fun _ => 0, ρ⟩ (fun r => ∀ c : Dev nD,
      r.2.mem ((c.tc : Thread nD τ).loc main_v0_0) = arrMu m c
      ∧ r.2.mem ((c.tc : Thread nD τ).loc main_v0_1) = arrSg m c
      ∧ r.2.mem ((c.tc : Thread nD τ).loc main_v0_2) = arrH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0_0 (by decide))).trans (W2_mu m c),
     (h c _ (mem_uc main_v0_1 (by decide))).trans (W2_sg m c),
     (h c _ (mem_uc main_v0_2 (by decide))).trans (W2_h m c),
     (h c _ (mem_uc main_arg0 (by decide))).trans (W2_arg0 m c),
     (h c _ (mem_uc main_arg1 (by decide))).trans (W2_arg1 m c),
     (h c _ (mem_uc main_arg2 (by decide))).trans (W2_arg2 m c)⟩) (run m ρ)

/-- THE FRAME: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.2.2.1, (h c).2.2.2.2.1, (h c).2.2.2.2.2⟩) (run_arrays m ρ)

end Cert.Kernel.Gen

end
-- ==== Proof.FrEnc.lean ====
/-
  The encoder's body as two triples, one per way its one conditional goes.

  At the first row-block of a batch (the conditional taken) the body first stores the support x[b] @ W into the
  scratch, whatever the scratch held; at every point it then loads the scratch whole and stores adj-block @ scratch into
  the output block. So on whole buffers the body leaves the three input blocks as they were, the scratch at the support
  it computed (taken) or found (not taken), and the output block at the product with that support.
-/
import proofs.«161750_g53850299957773_cont_9to1_m_306_6_alg».proof.Proof.Gen.KernelIdeal.Launch
import proofs.«161750_g53850299957773_cont_9to1_m_306_6_alg».proof.Proof.Gen.KernelIdeal.Skeleton
import proofs.«161750_g53850299957773_cont_9to1_m_306_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The encoder's accesses: each a whole block at zero offsets -/

abbrev rE_x : Rect S1x4096x128 := Rect.unit (s := S1x4096x128) ![0, 0, 0] S1x4096x128.size inb_S1x4096x128_S1x4096x128_0_0_0
abbrev rE_w : Rect S128x32 := Rect.unit (s := S128x32) ![0, 0] S128x32.size inb_S128x32_S128x32_0_0
abbrev rE_a : Rect S1x1024x4096 := Rect.unit (s := S1x1024x4096) ![0, 0, 0] S1x1024x4096.size inb_S1x1024x4096_S1x1024x4096_0_0_0
abbrev rE_h : Rect S1x1024x32 := Rect.unit (s := S1x1024x32) ![0, 0, 0] S1x1024x32.size inb_S1x1024x32_S1x1024x32_0_0_0
abbrev rE_s : Rect S4096x32 := Rect.unit (s := S4096x32) ![0, 0] S4096x32.size inb_S4096x32_S4096x32_0_0

/-- The branch condition, from the grid coordinates: the row-block coordinate is zero. -/
abbrev condE (i : grid0.Coords) : Prop :=
  (Scalar.cmpi .ne (Scalar.extui (Scalar.cmpi .eq (BitVec.ofNat 32 (i 1).val) 0#32)) 0#32) = 1#1

/-- The support the taken branch stores into the scratch, over the x block and the W block. -/
def outE_s (x0 : Vec F S1x4096x128 .f32) (x1 : Vec F S128x32 .f32) : Vec F S4096x32 .f32 :=
  View.canon [⟨rE_s, k0_pay1 (View.ld x0 rE_x) (View.ld x1 rE_w)⟩]
/-- The output block: the adj block times the scratch's contents `s`. -/
def outE_h (x2 : Vec F S1x1024x4096 .f32) (s : Vec F S4096x32 .f32) : Vec F S1x1024x32 .f32 :=
  View.canon [⟨rE_h, k0_pay2 (View.ld x2 rE_a) (View.ld s rE_s)⟩]

theorem coverE_h (p0 : Vec F S1x1024x32 .f32) (y : S1x1024x32.Idx) :
    ∃ pc ∈ ([⟨rE_h, p0⟩] : List (View.Piece (Elt F) S1x1024x32 .f32)), y ∈ pc.1.set :=
  View.cover_of_tiled [⟨rE_h, p0⟩] S1x1024x32.size (by rfl) y
theorem coverE_s (p0 : Vec F S4096x32 .f32) (y : S4096x32.Idx) :
    ∃ pc ∈ ([⟨rE_s, p0⟩] : List (View.Piece (Elt F) S4096x32 .f32)), y ∈ pc.1.set :=
  View.cover_of_tiled [⟨rE_s, p0⟩] S4096x32.size (by rfl) y

set_option maxHeartbeats 1000000 in
/-- The conditional not taken: the scratch is read at the contents `s` it holds and kept. -/
theorem sound_enc_rest (c : Dev nD) (E : Set ℕ) (i : grid0.Coords) (hc : ¬condE i)
    (arg2 : Memref sig .tc .vmem S1x4096x128 .f32) (harg2 : arg2.IsWhole) (arg3 : Memref sig .tc .vmem S128x32 .f32) (harg3 : arg3.IsWhole)
    (arg4 : Memref sig .tc .vmem S1x1024x4096 .f32) (harg4 : arg4.IsWhole) (arg5 : Memref sig .tc .vmem S1x1024x32 .f32) (harg5 : arg5.IsWhole)
    (arg6 : Memref sig .tc .vmem S4096x32 .f32) (harg6 : arg6.IsWhole)
    (x0 : Vec F S1x4096x128 .f32) (x1 : Vec F S128x32 .f32) (x2 : Vec F S1x1024x4096 .f32) (s : Vec F S4096x32 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (outE_h x2 s) ∗ owns (c : Thread nD τ) arg6 fullShare s) -∗ K ⟨⟩))
      ⊢ wp frame (wpE (defs₀ (F := F)) Variants.none c none) E (cc0__encoder_body i arg2 harg2 arg3 harg3 arg4 harg4 arg5 harg5 arg6 harg6) K := by
  simp only [cc0__encoder_body_eq_skeleton]; unfold cc0__encoder_body_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverE_h _)
  iexists f4; isplitr; · ipureintro; rfl
  iexact H4

set_option maxHeartbeats 1000000 in
/-- The conditional taken: the scratch, at anything, is first stored whole with the support. -/
theorem sound_enc_first (c : Dev nD) (E : Set ℕ) (i : grid0.Coords) (hc : condE i)
    (arg2 : Memref sig .tc .vmem S1x4096x128 .f32) (harg2 : arg2.IsWhole) (arg3 : Memref sig .tc .vmem S128x32 .f32) (harg3 : arg3.IsWhole)
    (arg4 : Memref sig .tc .vmem S1x1024x4096 .f32) (harg4 : arg4.IsWhole) (arg5 : Memref sig .tc .vmem S1x1024x32 .f32) (harg5 : arg5.IsWhole)
    (arg6 : Memref sig .tc .vmem S4096x32 .f32) (harg6 : arg6.IsWhole)
    (x0 : Vec F S1x4096x128 .f32) (x1 : Vec F S128x32 .f32) (x2 : Vec F S1x1024x4096 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outE_h x2 (outE_s x0 x1)) ∗ owns (c : Thread nD τ) arg6 fullShare (outE_s x0 x1)) -∗ K ⟨⟩))
      ⊢ wp frame (wpE (defs₀ (F := F)) Variants.none c none) E (cc0__encoder_body i arg2 harg2 arg3 harg3 arg4 harg4 arg5 harg5 arg6 harg6) K := by
  simp only [cc0__encoder_body_eq_skeleton]; unfold cc0__encoder_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    -- the load after the store reads the stored support back: both sides are the one store over that support
    rw [View.read_writes_eq_canon _ _ _ (coverE_h _)]
    sl_unfold_run_names
    unfold outE_h outE_s
    have hz2 : (![0, 0] : Fin S4096x32.rank → Nat) = fun _ => 0 := by funext a; fin_cases a <;> rfl
    simp only [View.readAt_eq_ld, View.readCov_unit_zero (S := S4096x32) _ hz2, View.canon_unit_zero (S := S4096x32) hz2,
      View.ld_unit_zero (S := S4096x32) hz2]
  iexists _; isplitr
  swap; · iexact H4
  ipureintro
  exact View.read_writes_eq_canon _ _ _ (coverE_s _)

end Cert.KernelIdeal.Gen

end
-- ==== Proof.FrDat0.lean ====
/-
  Region 0 (the encoder) as proof data for the pipeline, at the buffer contents `V` the region is entered with.

  A grid point is (batch, row-block), four row-blocks to a batch. The x block and the W block of a point are read off
  the arrays; the scratch holds, after a point, the support of that point's batch: computed at the batch's first
  row-block from the x and W blocks there, and carried unchanged through its other three — a recursion on the point.
  The output block after a point is the adj block times that scratch. The region's invariant is: before the first
  point every scoped buffer at anything; after point n the scratch at the support just described, the other scoped
  buffers at anything.
-/
import proofs.«161750_g53850299957773_cont_9to1_m_306_6_alg».proof.Proof.Gen.KernelIdeal.Launch
import proofs.«161750_g53850299957773_cont_9to1_m_306_6_alg».proof.Proof.Gen.KernelIdeal.Skeleton
import proofs.«161750_g53850299957773_cont_9to1_m_306_6_alg».proof.Proof.Gen.KernelIdeal.Points
import proofs.«161750_g53850299957773_cont_9to1_m_306_6_alg».proof.Proof.FrEnc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition over the grid -/

/-- The conditional is taken exactly at a batch's first row-block: the points ≡ 0 (mod 4). -/
theorem hcondE : ∀ t : Fin cfg0.N, condE (grid0.coords t) ↔ t.val % 4 = 0 :=
  (by decide +kernel : ∀ t : Fin grid0.N, condE (grid0.coords t) ↔ t.val % 4 = 0)

/-! ## The scratch after each point -/

/-- The scratch memref the body is passed. -/
abbrev scM : Memref sig .tc .vmem S4096x32 .f32 := Memref.whole cc0_scratch0

/-- What the scratch holds after point `n`: the support computed at the first row-block of `n`'s batch. -/
def scrAt (c : Dev nD) : (n : ℕ) → n < cfg0.N → Vec F S4096x32 .f32
  | 0, hn => outE_s (iblk0 V c 0 ⟨0, hn⟩) (iblk0 V c 1 ⟨0, hn⟩)
  | n + 1, hn =>
    if (n + 1) % 4 = 0 then outE_s (iblk0 V c 0 ⟨n + 1, hn⟩) (iblk0 V c 1 ⟨n + 1, hn⟩)
    else scrAt c n (Nat.lt_of_succ_lt hn)

/-- At a batch's first row-block the scratch is stored afresh. -/
theorem scrAt_first (c : Dev nD) (t : Fin cfg0.N) (h : t.val % 4 = 0) :
    scrAt V c t.val t.isLt = outE_s (iblk0 V c 0 t) (iblk0 V c 1 t) := by
  obtain ⟨n, hn⟩ := t
  cases n with
  | zero => rfl
  | succ n => exact if_pos h

/-- At the other row-blocks it is what the point before left. -/
theorem scrAt_rest (c : Dev nD) (t : Fin cfg0.N) (h : ¬t.val % 4 = 0) :
    scrAt V c t.val t.isLt = scrAt V c (t.val - 1) (Nat.lt_of_le_of_lt (Nat.sub_le _ _) t.isLt) := by
  obtain ⟨n, hn⟩ := t
  cases n with
  | zero => exact absurd (Nat.zero_mod _) h
  | succ n => exact if_neg h

/-! ## The invariant -/

/-- The scoped buffers other than the scratch (the decoder's staging buffers), each whole at anything. -/
def restE (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant before the first point — every scoped buffer that is no staging buffer of this region at anything,
    the generator register at some state — with the scratch spelt as a memref owned at some contents. -/
theorem PhiA0_eq (c : Dev nD) :
    (Pipeline.ΦA spec0 c : sProp 𝕄)
      = iprop(((∃ d, owns (c : Thread nD τ) scM fullShare d) ∗ restE c) ∗ (∃ r, prngReg c r)) := by
  unfold Pipeline.ΦA restE; rw [scopedRest0_eq]; simp only [scM, owns_whole]; try rfl

/-- The invariant before position `n`. -/
def PhiS0 (c : Dev nD) : (n : ℕ) → n ≤ cfg0.N → sProp 𝕄
  | 0, _ => Pipeline.ΦA spec0 c
  | n + 1, hn => iprop((owns (c : Thread nD τ) scM fullShare (scrAt V c n hn) ∗ restE c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM fullShare (scrAt V c n hn) ∗ restE c) ∗ (∃ r, prngReg c r)) := rfl
theorem PhiS0_pos (c : Dev nD) (n : ℕ) (h : n ≤ cfg0.N) (hz : n ≠ 0) :
    PhiS0 V c n h = iprop((owns (c : Thread nD τ) scM fullShare (scrAt V c (n - 1) (by omega)) ∗ restE c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outE_h (iblk0 V c 2 t) (scrAt V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = outE_h (iblk0 V c 2 t) (scrAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- The body at any point. The input buffers hold their blocks; the closed form of the condition says which way the
    conditional goes; the invariant hands the body the scratch (at anything before the first point, at what the point
    before left afterwards) and takes it back at this point's support. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, after0_0, after0_1, after0_2, after0_3]
  have hN : t.val < 8 := lt_of_lt_of_eq t.isLt (show cfg0.N = 8 from N_0)
  by_cases h0 : t.val % 4 = 0
  · rw [scrAt_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (sound_enc_first c Set.univ (grid0.coords t) ((hcondE t).mpr h0) _ _ _ _ _ _ _ _ _ _ (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (sound_enc_first c Set.univ (grid0.coords t) ((hcondE t).mpr h0) _ _ _ _ _ _ _ _ _ _ (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
  · rw [scrAt_rest V c t h0]
    have hz : t.val ≠ 0 := fun h => h0 (by rw [h])
    rw [PhiS0_castSucc V c t, PhiS0_pos V c _ _ hz]
    iintro ⟨⟨⟨HS, HR⟩, Hg⟩, Ho, ⟨%d0, H0⟩, ⟨%d1, H1⟩, ⟨%d2, H2⟩, ⟨%d3, H3⟩⟩
    iapply (sound_enc_rest c Set.univ (grid0.coords t) (fun h => h0 ((hcondE t).mp h)) _ _ _ _ _ _ _ _ _ _ (iblk0 V c 0 t) (iblk0 V c 1 t) (iblk0 V c 2 t) _ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back the one it started from: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega), PhiA0_eq]
  iintro ⟨⟨HS, HR⟩, Hg⟩
  isplitl [HS HR]
  · isplitl [HS]; · iexists _; iexact HS
    iexact HR
  iexact Hg

end Region0

end Cert.KernelIdeal.Gen

end
-- ==== Proof.FrDec.lean ====
/-
  The decoder's body as a triple. On whole staging buffers — the two input blocks at given contents, the two output
  blocks at anything — the body runs to the end leaving the inputs as they were and each output block at the one value
  its single store wrote: the floored product of the first (second) halves of the two input blocks' feature columns.
-/
import proofs.«161750_g53850299957773_cont_9to1_m_306_6_alg».proof.Proof.Gen.KernelIdeal.Launch
import proofs.«161750_g53850299957773_cont_9to1_m_306_6_alg».proof.Proof.Gen.KernelIdeal.Skeleton
import proofs.«161750_g53850299957773_cont_9to1_m_306_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The decoder's accesses: each a whole block at zero offsets -/

abbrev rD_0 : Rect S1x512x32 := Rect.unit (s := S1x512x32) ![0, 0, 0] S1x512x32.size inb_S1x512x32_S1x512x32_0_0_0
abbrev rD_1 : Rect S1x4096x32 := Rect.unit (s := S1x4096x32) ![0, 0, 0] S1x4096x32.size inb_S1x4096x32_S1x4096x32_0_0_0
abbrev rD_o : Rect S1x512x4096 := Rect.unit (s := S1x512x4096) ![0, 0, 0] S1x512x4096.size inb_S1x512x4096_S1x512x4096_0_0_0

/-- What the body leaves in the first output block: its one store, over the two input blocks. -/
def outD_2 (x0 : Vec F S1x512x32 .f32) (x1 : Vec F S1x4096x32 .f32) : Vec F S1x512x4096 .f32 :=
  View.canon [⟨rD_o, k1_pay3 (View.ld x0 rD_0) (View.ld x1 rD_1)⟩]
/-- What the body leaves in the second output block. -/
def outD_3 (x0 : Vec F S1x512x32 .f32) (x1 : Vec F S1x4096x32 .f32) : Vec F S1x512x4096 .f32 :=
  View.canon [⟨rD_o, k1_pay4 (View.ld x0 rD_0) (View.ld x1 rD_1)⟩]

/-- One store of the whole block tiles the block. -/
theorem coverD (p0 : Vec F S1x512x4096 .f32) (y : S1x512x4096.Idx) :
    ∃ pc ∈ ([⟨rD_o, p0⟩] : List (View.Piece (Elt F) S1x512x4096 .f32)), y ∈ pc.1.set :=
  View.cover_of_tiled [⟨rD_o, p0⟩] S1x512x4096.size (by rfl) y

set_option maxHeartbeats 1000000 in
theorem sound_dec (c : Dev nD) (E : Set ℕ) (i : grid1.Coords)
    (arg3 : Memref sig .tc .vmem S1x512x32 .f32) (harg3 : arg3.IsWhole) (arg4 : Memref sig .tc .vmem S1x4096x32 .f32) (harg4 : arg4.IsWhole)
    (arg5 : Memref sig .tc .vmem S1x512x4096 .f32) (harg5 : arg5.IsWhole) (arg6 : Memref sig .tc .vmem S1x512x4096 .f32) (harg6 : arg6.IsWhole)
    (x0 : Vec F S1x512x32 .f32) (x1 : Vec F S1x4096x32 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
            ∗ owns (c : Thread nD τ) arg5 fullShare (outD_2 x0 x1) ∗ owns (c : Thread nD τ) arg6 fullShare (outD_3 x0 x1)) -∗ K ⟨⟩))
      ⊢ wp frame (wpE (defs₀ (F := F)) Variants.none c none) E (cc1__decoder_body i arg3 harg3 arg4 harg4 arg5 harg5 arg6 harg6) K := by
  simp only [cc1__decoder_body_eq_skeleton]; unfold cc1__decoder_body_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverD _)
  iexists _; isplitr
  swap; · iexact H3
  ipureintro
  exact View.read_writes_eq_canon _ _ _ (coverD _)

end Cert.KernelIdeal.Gen

end
-- ==== Proof.FrDat1.lean ====
/-
  Region 1 (the decoder) as proof data for the pipeline, at the buffer contents `V` the region is entered with.

  A grid point is (batch, row-block of 512 rows, the one column-block). The two input windows read one array — the hidden
  features — a 512-row block and a batch's whole 4096 rows; each holds the array at one half of the full share. After
  the body the two output blocks hold the floored products of the two halves of the feature columns. The body keeps
  nothing between points: the invariant is every scoped buffer that is no staging buffer of this region at anything.
-/
import proofs.«161750_g53850299957773_cont_9to1_m_306_6_alg».proof.Proof.Gen.KernelIdeal.Launch
import proofs.«161750_g53850299957773_cont_9to1_m_306_6_alg».proof.Proof.Gen.KernelIdeal.Skeleton
import proofs.«161750_g53850299957773_cont_9to1_m_306_6_alg».proof.Proof.Gen.KernelIdeal.Points
import proofs.«161750_g53850299957773_cont_9to1_m_306_6_alg».proof.Proof.FrDec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data: each input's buffer at its block, each output's at the body's store over the two input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outD_2 (iblk1 V c 0 t) (iblk1 V c 1 t)
    | ⟨3, _⟩ => outD_3 (iblk1 V c 0 t) (iblk1 V c 1 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = outD_2 (iblk1 V c 0 t) (iblk1 V c 1 t) := by dsimp only [dat1]
theorem after1_3 (c : Dev nD) (t : Fin cfg1.N) :
    (dat1 V c).after 3 t = outD_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The shares the four windows hold their arrays at: the two halves for the two readers of the hidden features, the
    whole for each output. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_dec c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.FrSplit1.lean ====
/-
  Region 1 reads one array through two windows. The pipeline holds an array once per window, an input window's at that
  window's share; so the one buffer behind the two reading windows, held whole at the full share outside the region,
  is held inside it as its two half shares, one per window, and the two output arrays at the full share each. This
  module states that splitting and its inverse.
-/
import proofs.«161750_g53850299957773_cont_9to1_m_306_6_alg».proof.Proof.Gen.KernelIdeal.Launch
import proofs.«161750_g53850299957773_cont_9to1_m_306_6_alg».proof.Proof.Gen.KernelIdeal.Skeleton
import proofs.«161750_g53850299957773_cont_9to1_m_306_6_alg».proof.Proof.Gen.KernelIdeal.Points
import proofs.«161750_g53850299957773_cont_9to1_m_306_6_alg».proof.Proof.FrDat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Split1

variable (V : (c : Dev nD) → (b : Ref sig .tc) → Buf (Elt F) ((c : Thread nD τ).loc b))

/-- The three distinct buffers behind region 1's four windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0_2) ↦{fullShare} W main_v0_2) ∗ (((c : Thread nD τ).loc main_v0_0) ↦{fullShare} W main_v0_0)
          ∗ (((c : Thread nD τ).loc main_v0_1) ↦{fullShare} W main_v0_1)) := by
  unfold Pipeline.arrBufs
  rw [show Finset.univ.image (Pipeline.arrRef spec1) = insert main_v0_2 (insert main_v0_0 {main_v0_1}) from by decide,
    bigSep_insert (by decide), bigSep_insert (by decide), bigSep_singleton]
  rfl

/-- The pipeline's arrays, window by window: the hidden features at the two halves, each output whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_2) ↦{fullShare.left} G 0) ∗ (((c : Thread nD τ).loc main_v0_2) ↦{fullShare.right} G 1)
          ∗ (((c : Thread nD τ).loc main_v0_0) ↦{fullShare} G 2) ∗ (((c : Thread nD τ).loc main_v0_1) ↦{fullShare} G 3)) := by
  unfold Dat.arrays
  -- (windows 0 and 1 are over one array: one rewrite serves both)
  rw [bigSep_W1, (arr_whole1 0).set_eq_univ, (arr_whole1 2).set_eq_univ, (arr_whole1 3).set_eq_univ,
    share1_0, share1_1, share1_2, share1_3]

/-- ENTRY: the buffers whole make the windows' arrays, the shared one split into its halves. -/
theorem split1 (c : Dev nD) (W : (b : Ref sig .tc) → Buf (Elt F) ((c : Thread nD τ).loc b))
    (G : (w : Fin cfg1.W) → Buf (Elt F) ((cfg1.win w).arr.view.loc (c : Thread nD τ)))
    (h0 : G 0 = W main_v0_2) (h1 : G 1 = W main_v0_2) (h2 : G 2 = W main_v0_0) (h3 : G 3 = W main_v0_1) :
    (Pipeline.arrBufs (Ix := Unit) (Name := ℕ) (U := UR sig nD τ) (Lvl := ℕ) spec1 c W : sProp 𝕄) ⊢ (dat1 V c).arrays G := by
  rw [arrBufs1_eq, arrays1_eq, h0, h1, h2, h3]
  iintro ⟨Hh, Hm, Hs⟩
  ihave Hh' := (pointsTo_share (PosShare.mem_left_op_right fullShare)).1 $$ Hh
  icases Hh' with ⟨Hl, Hr⟩
  isplitl [Hl]; · iexact Hl
  isplitl [Hr]; · iexact Hr
  isplitl [Hm]; · iexact Hm
  iexact Hs

/-- EXIT: the halves, still at one contents, make the buffer whole again. -/
theorem join1 (c : Dev nD) (W : (b : Ref sig .tc) → Buf (Elt F) ((c : Thread nD τ).loc b))
    (G : (w : Fin cfg1.W) → Buf (Elt F) ((cfg1.win w).arr.view.loc (c : Thread nD τ)))
    (h0 : G 0 = W main_v0_2) (h1 : G 1 = W main_v0_2) (h2 : G 2 = W main_v0_0) (h3 : G 3 = W main_v0_1) :
    ((dat1 V c).arrays G : sProp 𝕄) ⊢ Pipeline.arrBufs (Ix := Unit) (Name := ℕ) (U := UR sig nD τ) (Lvl := ℕ) spec1 c W := by
  rw [arrBufs1_eq, arrays1_eq, h0, h1, h2, h3]
  iintro ⟨Hl, Hr, Hm, Hs⟩
  isplitl [Hl Hr]
  · iapply (pointsTo_share (PosShare.mem_left_op_right fullShare)).2
    isplitl [Hl]; · iexact Hl
    iexact Hr
  isplitl [Hm]; · iexact Hm
  iexact Hs

end Split1

end Cert.KernelIdeal.Gen

end
-- ==== Proof.FrRun.lean ====
/-
  The whole run of the program's two regions, at any instance of the float operations.

  The unscoped buffers are followed through the program as three valuations: the launch contents; those with the
  hidden-features array replaced by what region 0's write-backs leave; those with the two decoder arrays replaced by
  what region 1's write-backs leave. Each region is entered holding every unscoped buffer whole at the valuation before
  it and left holding them at the valuation after it. Region 1 reads the hidden-features array through two windows:
  at its entry that one buffer is split into its two half shares, one per window, and at its exit the halves are joined
  again (the windows never write it). The run ends with every unscoped buffer at the last valuation, from which the
  three argument arrays read back their launch contents and the three results what the regions wrote.
-/
import proofs.«161750_g53850299957773_cont_9to1_m_306_6_alg».proof.Proof.Gen.KernelIdeal.Launch
import proofs.«161750_g53850299957773_cont_9to1_m_306_6_alg».proof.Proof.Gen.KernelIdeal.Skeleton
import proofs.«161750_g53850299957773_cont_9to1_m_306_6_alg».proof.Proof.Gen.KernelIdeal.Points
import proofs.«161750_g53850299957773_cont_9to1_m_306_6_alg».proof.Proof.FrDat0
import proofs.«161750_g53850299957773_cont_9to1_m_306_6_alg».proof.Proof.FrDat1
import proofs.«161750_g53850299957773_cont_9to1_m_306_6_alg».proof.Proof.FrSplit1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev VR0 : (c : Dev nD) → (b : Ref sig .tc) → Buf (Elt F) ((c : Thread nD τ).loc b) := fun c b => W0 m c b

/-- What region 0 leaves in the hidden-features array. -/
def arrH (c : Dev nD) : Buf (Elt F) ((c : Thread nD τ).loc main_v0_2) := (dat0 (VR0 m) c).arrAt 3 cfg0.N

/-- After region 0: the hidden-features array at what its write-backs leave, every other buffer as launched. -/
def W1 (c : Dev nD) : Valuation τ sig (Elt F) := Function.update (W0 m c) main_v0_2 (arrH m c)
abbrev VR1 : (c : Dev nD) → (b : Ref sig .tc) → Buf (Elt F) ((c : Thread nD τ).loc b) := fun c b => W1 m c b

/-- What region 1 leaves in the two decoder arrays. -/
def arrMu (c : Dev nD) : Buf (Elt F) ((c : Thread nD τ).loc main_v0_0) := (dat1 (VR1 m) c).arrAt 2 cfg1.N
def arrSg (c : Dev nD) : Buf (Elt F) ((c : Thread nD τ).loc main_v0_1) := (dat1 (VR1 m) c).arrAt 3 cfg1.N

/-- After region 1. -/
def W2 (c : Dev nD) : Valuation τ sig (Elt F) :=
  Function.update (Function.update (W1 m c) main_v0_0 (arrMu m c)) main_v0_1 (arrSg m c)
abbrev VR2 : (c : Dev nD) → (b : Ref sig .tc) → Buf (Elt F) ((c : Thread nD τ).loc b) := fun c b => W2 m c b

theorem W1_h (c : Dev nD) : W1 m c (Proc.devRef .tc main_v0_2) = arrH m c := by
  unfold W1; exact Function.update_self ..
theorem W1_of_ne (c : Dev nD) (b : Ref sig .tc) (hb : b ≠ main_v0_2) : W1 m c (Proc.devRef .tc b) = W0 m c (Proc.devRef .tc b) := by
  unfold W1; exact Function.update_of_ne (StableHlo.devRef_ne_of_ne hb) ..
theorem W2_sg (c : Dev nD) : W2 m c (Proc.devRef .tc main_v0_1) = arrSg m c := by
  unfold W2; exact Function.update_self ..
theorem W2_mu (c : Dev nD) : W2 m c (Proc.devRef .tc main_v0_0) = arrMu m c := by
  unfold W2; rw [Function.update_of_ne (StableHlo.devRef_ne_of_ne (by decide))]; exact Function.update_self ..
theorem W2_of_ne (c : Dev nD) (b : Ref sig .tc) (h0 : b ≠ main_v0_0) (h1 : b ≠ main_v0_1) :
    W2 m c (Proc.devRef .tc b) = W1 m c (Proc.devRef .tc b) := by
  unfold W2; rw [Function.update_of_ne (StableHlo.devRef_ne_of_ne h1), Function.update_of_ne (StableHlo.devRef_ne_of_ne h0)]

/-- The arguments and the hidden features at the end. -/
theorem W2_arg0 (c : Dev nD) : W2 m c (Proc.devRef .tc main_arg0) = m ((c : Thread nD τ).loc main_arg0) :=
  (W2_of_ne m c main_arg0 (by decide) (by decide)).trans ((W1_of_ne m c main_arg0 (by decide)).trans rfl)
theorem W2_arg1 (c : Dev nD) : W2 m c (Proc.devRef .tc main_arg1) = m ((c : Thread nD τ).loc main_arg1) :=
  (W2_of_ne m c main_arg1 (by decide) (by decide)).trans ((W1_of_ne m c main_arg1 (by decide)).trans rfl)
theorem W2_arg2 (c : Dev nD) : W2 m c (Proc.devRef .tc main_arg2) = m ((c : Thread nD τ).loc main_arg2) :=
  (W2_of_ne m c main_arg2 (by decide) (by decide)).trans ((W1_of_ne m c main_arg2 (by decide)).trans rfl)
theorem W2_h (c : Dev nD) : W2 m c (Proc.devRef .tc main_v0_2) = arrH m c :=
  (W2_of_ne m c main_v0_2 (by decide) (by decide)).trans (W1_h m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## Region 0 -/

theorem hF0 (c : Dev nD) (w : Fin cfg0.W) : (dat0 (VR0 m) c).arrAt w cfg0.N = VR1 m c (Pipeline.arrRef spec0 w) := by
  match w with
  | ⟨0, _⟩ => exact ((dat0 (VR0 m) c).arrAt_in 0 rfl _).trans ((A_eq0 (VR0 m) c 0).trans (W1_of_ne m c main_arg0 (by decide)).symm)
  | ⟨1, _⟩ => exact ((dat0 (VR0 m) c).arrAt_in 1 rfl _).trans ((A_eq0 (VR0 m) c 1).trans (W1_of_ne m c main_arg2 (by decide)).symm)
  | ⟨2, _⟩ => exact ((dat0 (VR0 m) c).arrAt_in 2 rfl _).trans ((A_eq0 (VR0 m) c 2).trans (W1_of_ne m c main_arg1 (by decide)).symm)
  | ⟨3, _⟩ => exact (W1_h m c).symm
theorem hrest0 (c : Dev nD) : ∀ b, b ∉ Finset.univ.image (Pipeline.arrRef spec0) → VR1 m c b = VR0 m c b :=
  fun b hb => W1_of_ne m c b fun e => hb (Finset.mem_image.mpr ⟨3, Finset.mem_univ _, e.symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR0 m) c)
    unfold Pipeline.ΦA
    iintro ⟨Hp, -, Hr⟩
    isplitl [Hr]; · iexact Hr
    iexact Hp
  hout c := by
    rw [Pipeline.ownSems0_none]
    refine BIBase.Entails.trans (hout0 (VR0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VR1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- The two reading windows' array is never written by the region: at the end it is what it was at entry, which is
    also what the last valuation has for it. -/
theorem hG1_0 (c : Dev nD) : (dat1 (VR1 m) c).arrAt 0 cfg1.N = VR2 m c main_v0_2 :=
  ((dat1 (VR1 m) c).arrAt_in 0 rfl _).trans ((A_eq1 (VR1 m) c 0).trans ((W1_h m c).trans (W2_h m c).symm))
theorem hG1_1 (c : Dev nD) : (dat1 (VR1 m) c).arrAt 1 cfg1.N = VR2 m c main_v0_2 :=
  ((dat1 (VR1 m) c).arrAt_in 1 rfl _).trans ((A_eq1 (VR1 m) c 1).trans ((W1_h m c).trans (W2_h m c).symm))

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hub : (StableHlo.held (c : Thread nD τ) (Pipeline.ucRefs τ sig) (W1 m c) : sProp 𝕄)
        = iprop(Pipeline.arrBufs (Ix := Unit) (Name := ℕ) (U := UR sig nD τ) (Lvl := ℕ) spec1 c (VR1 m c)
            ∗ Pipeline.unscopedRest (Ix := Unit) (Name := ℕ) (U := UR sig nD τ) (Lvl := ℕ) spec1 c (VR1 m c)) := by
      rw [← Pipeline.unscopedBufs_held]
      exact Pipeline.unscopedBufs_split₀ cfgs 1 winFacts₀1.arr_unscoped c (VR1 m c)
    rw [hub]
    iintro ⟨⟨⟨Hab, Hrest⟩, Hp, HO⟩, -, -⟩
    ihave Ha := (split1 (VR1 m) c (VR1 m c) ((pdats m 1 c).arrAt · 0) rfl rfl rfl rfl) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (W2 m c) : sProp 𝕄)
        = iprop(Pipeline.arrBufs (Ix := Unit) (Name := ℕ) (U := UR sig nD τ) (Lvl := ℕ) spec1 c (VR2 m c)
            ∗ Pipeline.unscopedRest (Ix := Unit) (Name := ℕ) (U := UR sig nD τ) (Lvl := ℕ) spec1 c (VR2 m c)) := by
      rw [← Pipeline.unscopedBufs_held]
      exact Pipeline.unscopedBufs_split₀ cfgs 1 winFacts₀1.arr_unscoped c (VR2 m c)
    -- off the region's arrays the two valuations agree
    have hrest : (Pipeline.unscopedRest (Ix := Unit) (Name := ℕ) (U := UR sig nD τ) (Lvl := ℕ) spec1 c (VR2 m c) : sProp 𝕄)
        = Pipeline.unscopedRest (Ix := Unit) (Name := ℕ) (U := UR sig nD τ) (Lvl := ℕ) spec1 c (VR1 m c) := by
      unfold Pipeline.unscopedRest
      exact bigSep_congr fun b hb => by
        have e : VR2 m c b = VR1 m c b :=
          W2_of_ne m c b (fun e => (Finset.mem_sdiff.mp hb).2 (Finset.mem_image.mpr ⟨2, Finset.mem_univ _, e.symm⟩))
            (fun e => (Finset.mem_sdiff.mp hb).2 (Finset.mem_image.mpr ⟨3, Finset.mem_univ _, e.symm⟩))
        rw [e]
    unfold Tₙ
    rw [hub, hrest]
    iintro ⟨Ha, HO, HY, Hrest⟩
    have hj : ((pdats m 1 c).arrays (fun x => (pdats m 1 c).arrAt x (Pipeline.pin (pcfgs (F := F)) adm 1).N) : sProp 𝕄)
        ⊢ Pipeline.arrBufs (Ix := Unit) (Name := ℕ) (U := UR sig nD τ) (Lvl := ℕ) spec1 c (VR2 m c) :=
      join1 (VR1 m) c (VR2 m c) ((dat1 (VR1 m) c).arrAt · cfg1.N) (hG1_0 m c) (hG1_1 m c) (W2_mu m c).symm (W2_sg m c).symm
    ihave Hab := hj $$ Ha
    imodintro
    isplitl [Hab Hrest HY]
    · isplitl [Hab Hrest]
      · isplitl [Hab]; · iexact Hab
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state holds every unscoped buffer at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The same, read at the six arrays the claims speak of. -/
theorem run_arrays : θ_run defs (onTc (τ := τ) (main (F := F))) ⟨m, fun _ => 0, ρ⟩ (fun r => ∀ c : Dev nD,
      r.2.mem ((c.tc : Thread nD τ).loc main_v0_0) = arrMu m c
      ∧ r.2.mem ((c.tc : Thread nD τ).loc main_v0_1) = arrSg m c
      ∧ r.2.mem ((c.tc : Thread nD τ).loc main_v0_2) = arrH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0_0 (by decide))).trans (W2_mu m c),
     (h c _ (mem_uc main_v0_1 (by decide))).trans (W2_sg m c),
     (h c _ (mem_uc main_v0_2 (by decide))).trans (W2_h m c),
     (h c _ (mem_uc main_arg0 (by decide))).trans (W2_arg0 m c),
     (h c _ (mem_uc main_arg1 (by decide))).trans (W2_arg1 m c),
     (h c _ (mem_uc main_arg2 (by decide))).trans (W2_arg2 m c)⟩) (run m ρ)

/-- THE FRAME: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.2.2.1, (h c).2.2.2.2.1, (h c).2.2.2.2.2⟩) (run_arrays m ρ)

end Cert.KernelIdeal.Gen

end
-- ==== Proof.Spec.lean ====
/-
  The mathematics both programs compute, index by index over the extended reals.

  For a batch b, a node n and a feature h:
    support b n h = Σ_f x[b,n,f] · W[f,h]                (f over the 128 input features)
    hidden  b n h = Σ_k adj[b,n,k] · support b k h       (k over the 4096 nodes)
  and, for two nodes n, n' of one batch, the two decoders are inner products of the two halves of the
  32 hidden features, floored at the zero word:
    mu    b n n' = max (Σ_{d<16} hidden b n d      · hidden b n' d)      0
    sigma b n n' = max (Σ_{d<16} hidden b n (d+16) · hidden b n' (d+16)) 0
  Every sum is one whole sum over its index type, so no law of the extended reals beyond reading each
  operation at an index is needed to identify the two programs with these functions.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![2, 4096, 128]⟩
abbrev SA : Shape := ⟨3, ![2, 4096, 4096]⟩
abbrev SW : Shape := ⟨2, ![128, 32]⟩
abbrev SH : Shape := ⟨3, ![2, 4096, 32]⟩

/-- The zero word both programs floor the decoders at, kept as its word. -/
abbrev z0 : EReal := Ideal.ofBits .f32 0x00000000#32

/-- Feature d of the first half of the hidden features, and of the second half. -/
abbrev lo (d : Fin 16) : Fin 32 := ⟨d.val, by omega⟩
abbrev hi (d : Fin 16) : Fin 32 := ⟨d.val + 16, by omega⟩

variable (x : SX.Idx → EReal) (adj : SA.Idx → EReal) (w : SW.Idx → EReal)

/-- x[b] @ W at (n, h). -/
def support (b : Fin 2) (n : Fin 4096) (h : Fin 32) : EReal :=
  ∑ f : Fin 128, x (ix3 b n f) * w (ix2 f h)

/-- adj[b] @ support[b] at (n, h). -/
def hidden (b : Fin 2) (n : Fin 4096) (h : Fin 32) : EReal :=
  ∑ k : Fin 4096, adj (ix3 b n k) * support x w b k h

/-- The inner product of the first halves of two nodes' hidden features, floored at zero. -/
def mu (b : Fin 2) (n n' : Fin 4096) : EReal :=
  max (∑ d : Fin 16, hidden x adj w b n (lo d) * hidden x adj w b n' (lo d)) z0

/-- The inner product of the second halves, floored at zero. -/
def sigma (b : Fin 2) (n n' : Fin 4096) : EReal :=
  max (∑ d : Fin 16, hidden x adj w b n (hi d) * hidden x adj w b n' (hi d)) z0

/-- The three results as whole arrays. -/
def H : SH.Idx → EReal := fun j => hidden x adj w (j 0) (j 1) (j 2)
def Mu : SA.Idx → EReal := fun j => mu x adj w (j 0) (j 1) (j 2)
def Sigma : SA.Idx → EReal := fun j => sigma x adj w (j 0) (j 1) (j 2)

theorem H_ix (b : Fin 2) (n : Fin 4096) (h : Fin 32) : H x adj w (ix3 b n h) = hidden x adj w b n h := rfl
theorem Mu_ix (b : Fin 2) (n n' : Fin 4096) : Mu x adj w (ix3 b n n') = mu x adj w b n n' := rfl
theorem Sigma_ix (b : Fin 2) (n n' : Fin 4096) : Sigma x adj w (ix3 b n n') = sigma x adj w b n n' := rfl

end Cert.Spec

end
-- ==== Proof.RefSide.lean ====
/-
  The reference program read at Ideal: its three results as functions of the argument arrays, index by index.

  The reference computes, for a batch b, a node n and a feature h,
    support b n h = Σ_f x[b,n,f] · W[f,h]            (one contraction over the 128 input features)
    hidden  b n h = Σ_k adj[b,n,k] · support b k h   (one contraction over the 4096 nodes, batched over b)
  then cuts the 32 hidden features into the columns 0..15 and 16..31, transposes each half, and multiplies
  each half with its own transpose (one contraction over the 16 columns of the half, batched over b); the
  two products are floored at the zero word.  Every stage below is read at an index given by its
  coordinates, so that each stage is one equation between a stage of the program and a function of the
  specification.  No law of the extended reals is used: every sum of the program is, term by term, the sum
  the specification writes.
-/
import proofs.«161750_g53850299957773_cont_9to1_m_306_6_alg».proof.Proof.Gen.ReferenceIdeal.Read
import proofs.«161750_g53850299957773_cont_9to1_m_306_6_alg».proof.Proof.Spec
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read
open Idealize.ShloMosaic Idealize.ShloMosaic.ValueIdx Idealize.ShloMosaic.TcCoe Idealize.SL.Sem
open scoped BigOperators

/-- The three argument arrays, typed as the program types them: x [2,4096,128], adj [2,4096,4096], W [128,32]. -/
abbrev TX : Type := (⟨S2x4096x128, .f32⟩ : BufTy).Contents (Elt Ideal)
abbrev TA : Type := (⟨S2x4096x4096, .f32⟩ : BufTy).Contents (Elt Ideal)
abbrev TW : Type := (⟨S128x32, .f32⟩ : BufTy).Contents (Elt Ideal)

/-! ## Where each stage reads its operands, in coordinates

Each equation says: the operand index the stage computes from a result index (b, n, ·) is the index with
the evident coordinates.  Both sides are functions on three (or two) axes that agree axis by axis. -/

/-- x·W at (b, n, h) reads x at (b, n, f) … -/
theorem lidx_v0 (b : Fin 2) (n : Fin 4096) (h : Fin 32) (f : Fin 128) :
    lidx_main_v0 (ix3 b n h) f = ix3 b n f :=
  funext fun a => Fin.ext (by match a with | ⟨0, _⟩ => rfl | ⟨1, _⟩ => rfl | ⟨2, _⟩ => rfl)
/-- … and W at (f, h). -/
theorem ridx_v0 (b : Fin 2) (n : Fin 4096) (h : Fin 32) (f : Fin 128) :
    ridx_main_v0 (ix3 b n h) f = ix2 f h :=
  funext fun a => Fin.ext (by match a with | ⟨0, _⟩ => rfl | ⟨1, _⟩ => rfl)

/-- adj·support at (b, n, h) reads adj at (b, n, k) … -/
theorem lidx_v1 (b : Fin 2) (n : Fin 4096) (h : Fin 32) (k : Fin 4096) :
    lidx_main_v1 (ix3 b n h) k = ix3 b n k :=
  funext fun a => Fin.ext (by match a with | ⟨0, _⟩ => rfl | ⟨1, _⟩ => rfl | ⟨2, _⟩ => rfl)
/-- … and support at (b, k, h). -/
theorem ridx_v1 (b : Fin 2) (n : Fin 4096) (h : Fin 32) (k : Fin 4096) :
    ridx_main_v1 (ix3 b n h) k = ix3 b k h :=
  funext fun a => Fin.ext (by match a with | ⟨0, _⟩ => rfl | ⟨1, _⟩ => rfl | ⟨2, _⟩ => rfl)

/-- Column d of the first half is column d of the hidden features. -/
theorem idx_v2 (b : Fin 2) (n : Fin 4096) (d : Fin 16) :
    idx_main_v2 (ix3 b n d) = ix3 b n (Cert.Spec.lo d) :=
  funext fun a => Fin.ext (by match a with | ⟨0, _⟩ => rfl | ⟨1, _⟩ => rfl | ⟨2, _⟩ => rfl)
/-- Column d of the second half is column d + 16 of the hidden features. -/
theorem idx_v3 (b : Fin 2) (n : Fin 4096) (d : Fin 16) :
    idx_main_v3 (ix3 b n d) = ix3 b n (Cert.Spec.hi d) :=
  funext fun a => Fin.ext (by
    match a with
    | ⟨0, _⟩ => rfl
    | ⟨1, _⟩ => rfl
    | ⟨2, _⟩ => show 16 + d.val = d.val + 16; omega)

/-- The transpose of a half at (b, d, n) reads the half at (b, n, d). -/
theorem idx_v4 (b : Fin 2) (d : Fin 16) (n : Fin 4096) :
    idx_main_v4 (ix3 b d n) = ix3 b n d :=
  funext fun a => Fin.ext (by match a with | ⟨0, _⟩ => rfl | ⟨1, _⟩ => rfl | ⟨2, _⟩ => rfl)
theorem idx_v7 (b : Fin 2) (d : Fin 16) (n : Fin 4096) :
    idx_main_v7 (ix3 b d n) = ix3 b n d :=
  funext fun a => Fin.ext (by match a with | ⟨0, _⟩ => rfl | ⟨1, _⟩ => rfl | ⟨2, _⟩ => rfl)

/-- half·halfᵀ at (b, n, n') reads the half at (b, n, d) … -/
theorem lidx_v5 (b : Fin 2) (n n' : Fin 4096) (d : Fin 16) :
    lidx_main_v5 (ix3 b n n') d = ix3 b n d :=
  funext fun a => Fin.ext (by match a with | ⟨0, _⟩ => rfl | ⟨1, _⟩ => rfl | ⟨2, _⟩ => rfl)
/-- … and its transpose at (b, d, n'). -/
theorem ridx_v5 (b : Fin 2) (n n' : Fin 4096) (d : Fin 16) :
    ridx_main_v5 (ix3 b n n') d = ix3 b d n' :=
  funext fun a => Fin.ext (by match a with | ⟨0, _⟩ => rfl | ⟨1, _⟩ => rfl | ⟨2, _⟩ => rfl)
theorem lidx_v8 (b : Fin 2) (n n' : Fin 4096) (d : Fin 16) :
    lidx_main_v8 (ix3 b n n') d = ix3 b n d :=
  funext fun a => Fin.ext (by match a with | ⟨0, _⟩ => rfl | ⟨1, _⟩ => rfl | ⟨2, _⟩ => rfl)
theorem ridx_v8 (b : Fin 2) (n n' : Fin 4096) (d : Fin 16) :
    ridx_main_v8 (ix3 b n n') d = ix3 b d n' :=
  funext fun a => Fin.ext (by match a with | ⟨0, _⟩ => rfl | ⟨1, _⟩ => rfl | ⟨2, _⟩ => rfl)

/-! ## The stages at coordinates -/

variable (x0 : TX) (x1 : TA) (x2 : TW)

/-- x·W at (b, n, h) is the specification's support. -/
theorem v0_at (b : Fin 2) (n : Fin 4096) (h : Fin 32) :
    val_main_v0 (F := Ideal) x0 x2 (ix3 b n h) = Cert.Spec.support x0 x2 b n h := by
  rw [val_main_v0_apply]
  unfold Cert.Spec.support
  refine Finset.sum_congr rfl fun f _ => ?_
  rw [lidx_v0, ridx_v0]

/-- adj·(x·W) at (b, n, h) is the specification's hidden feature. -/
theorem v1_at (b : Fin 2) (n : Fin 4096) (h : Fin 32) :
    val_main_v1 (F := Ideal) x0 x1 x2 (ix3 b n h) = Cert.Spec.hidden x0 x1 x2 b n h := by
  rw [val_main_v1_apply]
  unfold Cert.Spec.hidden
  refine Finset.sum_congr rfl fun k _ => ?_
  rw [lidx_v1, ridx_v1, v0_at]

/-- The first half at (b, n, d) is hidden feature d of node n. -/
theorem v2_at (b : Fin 2) (n : Fin 4096) (d : Fin 16) :
    val_main_v2 (F := Ideal) x0 x1 x2 (ix3 b n d) = Cert.Spec.hidden x0 x1 x2 b n (Cert.Spec.lo d) := by
  rw [val_main_v2_apply, idx_v2, v1_at]

/-- The second half at (b, n, d) is hidden feature d + 16 of node n. -/
theorem v3_at (b : Fin 2) (n : Fin 4096) (d : Fin 16) :
    val_main_v3 (F := Ideal) x0 x1 x2 (ix3 b n d) = Cert.Spec.hidden x0 x1 x2 b n (Cert.Spec.hi d) := by
  rw [val_main_v3_apply, idx_v3, v1_at]

/-- The transposed first half at (b, d, n) is hidden feature d of node n. -/
theorem v4_at (b : Fin 2) (d : Fin 16) (n : Fin 4096) :
    val_main_v4 (F := Ideal) x0 x1 x2 (ix3 b d n) = Cert.Spec.hidden x0 x1 x2 b n (Cert.Spec.lo d) := by
  rw [val_main_v4_apply, idx_v4, v2_at]

/-- The transposed second half at (b, d, n) is hidden feature d + 16 of node n. -/
theorem v7_at (b : Fin 2) (d : Fin 16) (n : Fin 4096) :
    val_main_v7 (F := Ideal) x0 x1 x2 (ix3 b d n) = Cert.Spec.hidden x0 x1 x2 b n (Cert.Spec.hi d) := by
  rw [val_main_v7_apply, idx_v7, v3_at]

/-- The first decoder before the floor: the inner product of the first halves of nodes n and n'. -/
theorem v5_at (b : Fin 2) (n n' : Fin 4096) :
    val_main_v5 (F := Ideal) x0 x1 x2 (ix3 b n n')
      = ∑ d : Fin 16, Cert.Spec.hidden x0 x1 x2 b n (Cert.Spec.lo d) * Cert.Spec.hidden x0 x1 x2 b n' (Cert.Spec.lo d) := by
  rw [val_main_v5_apply]
  refine Finset.sum_congr rfl fun d _ => ?_
  rw [lidx_v5, ridx_v5, v2_at, v4_at]

/-- The second decoder before the floor: the inner product of the second halves. -/
theorem v8_at (b : Fin 2) (n n' : Fin 4096) :
    val_main_v8 (F := Ideal) x0 x1 x2 (ix3 b n n')
      = ∑ d : Fin 16, Cert.Spec.hidden x0 x1 x2 b n (Cert.Spec.hi d) * Cert.Spec.hidden x0 x1 x2 b n' (Cert.Spec.hi d) := by
  rw [val_main_v8_apply]
  refine Finset.sum_congr rfl fun d _ => ?_
  rw [lidx_v8, ridx_v8, v3_at, v7_at]

/-- The array the decoders are floored at holds the zero word everywhere (kept as its word). -/
theorem floor0_at (i : S2x4096x4096.Idx) : val_main_call0_v0 (F := Ideal) i = Cert.Spec.z0 := by
  rw [val_main_call0_v0_apply, val_main_call0_cst_apply, Ideal.ofBits_def]
theorem floor1_at (i : S2x4096x4096.Idx) : val_main_call1_v0 (F := Ideal) i = Cert.Spec.z0 := by
  rw [val_main_call1_v0_apply, val_main_call1_cst_apply, Ideal.ofBits_def]

/-- The first decoder at (b, n, n'). -/
theorem v6_at (b : Fin 2) (n n' : Fin 4096) :
    val_main_v6 (F := Ideal) x0 x1 x2 (ix3 b n n') = Cert.Spec.mu x0 x1 x2 b n n' := by
  rw [val_main_v6_apply, Ideal.maximumf_def, v5_at, floor0_at]
  rfl

/-- The second decoder at (b, n, n'). -/
theorem v9_at (b : Fin 2) (n n' : Fin 4096) :
    val_main_v9 (F := Ideal) x0 x1 x2 (ix3 b n n') = Cert.Spec.sigma x0 x1 x2 b n n' := by
  rw [val_main_v9_apply, Ideal.maximumf_def, v8_at, floor1_at]
  rfl

/-! ## The three results as whole arrays -/

/-- The hidden features the reference returns are the specification's. -/
theorem val_h : val_main_v1 (F := Ideal) x0 x1 x2 = Cert.Spec.H x0 x1 x2 := by
  funext i
  obtain ⟨b, n, h, rfl⟩ : ∃ (b : Fin 2) (n : Fin 4096) (h : Fin 32), i = ix3 b n h := ⟨i 0, i 1, i 2, eq_ix3 i⟩
  rw [v1_at, Cert.Spec.H_ix]

/-- The first decoder the reference returns is the specification's. -/
theorem val_mu : val_main_v6 (F := Ideal) x0 x1 x2 = Cert.Spec.Mu x0 x1 x2 := by
  funext i
  obtain ⟨b, n, n', rfl⟩ : ∃ (b : Fin 2) (n n' : Fin 4096), i = ix3 b n n' := ⟨i 0, i 1, i 2, eq_ix3 i⟩
  rw [v6_at, Cert.Spec.Mu_ix]

/-- The second decoder the reference returns is the specification's. -/
theorem val_sigma : val_main_v9 (F := Ideal) x0 x1 x2 = Cert.Spec.Sigma x0 x1 x2 := by
  funext i
  obtain ⟨b, n, n', rfl⟩ : ∃ (b : Fin 2) (n n' : Fin 4096), i = ix3 b n n' := ⟨i 0, i 1, i 2, eq_ix3 i⟩
  rw [v9_at, Cert.Spec.Sigma_ix]

/-! ## The reference's run, stated against the specification -/

/-- The generated run of the reference, with each of its three result terms replaced by the specification's
    function of the three argument arrays as they were at launch (Mu, Sigma and H, by the three equations
    above); the guarantee itself (the same predicate on the same program from the same initial state, the
    arguments unchanged) is the generated theorem's, only its postcondition is rewritten. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
          = Cert.Spec.Mu (m ((c.tc : Thread nD τ).loc main_arg0)) (m ((c.tc : Thread nD τ).loc main_arg1)) (m ((c.tc : Thread nD τ).loc main_arg2))
      ∧ r.2.mem ((c.tc : Thread nD τ).loc main_v9)
          = Cert.Spec.Sigma (m ((c.tc : Thread nD τ).loc main_arg0)) (m ((c.tc : Thread nD τ).loc main_arg1)) (m ((c.tc : Thread nD τ).loc main_arg2))
      ∧ r.2.mem ((c.tc : Thread nD τ).loc main_v1)
          = Cert.Spec.H (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨h6, h9, h1, ha0, ha1, ha2⟩ := h c
      exact ⟨h6.trans ((val_main_v6_eq _ _ _).trans (val_mu _ _ _)),
        h9.trans ((val_main_v9_eq _ _ _).trans (val_sigma _ _ _)),
        h1.trans ((val_main_v1_eq _ _ _).trans (val_h _ _ _)),
        ha0, ha1, ha2⟩)
    (Cert.ReferenceIdeal.Value.run (F := Ideal) m ρ)

end Cert.ReferenceIdeal.RefSide

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibMatmulNT.lean ====
/-
  A matrix product against a transposed right operand, read at an entry.

  At the exact (extended-real) instance, the matrix unit's product of an [M, K] left operand with an [N, K] right operand,
  both contracted along their second axis, accumulated into zero, is at row `p` and column `q` the sum over `k` of
  `lhs(p, k) · rhs(q, k)`: the textbook `lhs · rhsᵀ`. For any extents, any operand formats, and any witness of the dimension
  numbers' side conditions.
-/
import Idealize.ShloMosaic.PureOps.Ideal.Laws
import Idealize.ShloMosaic.Lib.ValueIdx
import Idealize.ShloMosaic.Lib.Pipeline.Value

noncomputable section

namespace Idealize.ShloMosaic.MatmulNT

open Idealize.ShloMosaic Idealize.ShloMosaic.ValueIdx

variable {M K N : Nat} {φ₁ φ₂ : FTy}

/-- The dimension numbers of `lhs · rhsᵀ`: rows × contraction by columns × contraction, for any witness of their side
    conditions. -/
abbrev dims (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ :=
  ⟨[1], [1], [0], [0], [], [], wf⟩

/-- Over the extended reals `lhs · rhsᵀ` into a zero accumulator is, at row `p` and column `q`, the sum over the contracted
    coordinate `k` of the left operand at `(p, k)` times the right operand at `(q, k)`. -/
theorem matmul_zero_apply (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 q k := funext fun a => Fin.ext (by
    match a with
    | ⟨0, h0⟩ =>
      unfold DotDims.rhsIdx
      rw [dif_neg (List.not_mem_nil : ¬(⟨0, h0⟩ : Fin 2) ∈ (dims wf).rhsBatch),
        dif_pos (List.mem_singleton.mpr rfl : (⟨0, h0⟩ : Fin 2) ∈ (dims wf).rhsNonContracting)]
      rfl
    | ⟨1, _⟩ => exact ((dims wf).rhsIdx_val_of_single rfl _ _).trans hk)
  rw [el, er]

end Idealize.ShloMosaic.MatmulNT

end
-- ==== Proof.PayIdeal.lean ====
/-
  The four values the kernel stores, each read at one entry, over the extended reals.

  The encoder stores two blocks. The first is a block of the node features times the weight matrix: its
  entry (n, h) is the sum over the 128 input features f of x(0, n, f) · W(f, h). The second is a block of
  rows of the adjacency matrix times that product: its entry (0, r, h) is the sum over the 4096 nodes k of
  adj(0, r, k) · s(k, h). The decoder stores two blocks, each an inner product of one half of the 32 hidden
  features of node p of a block of 512 nodes with the same half of node q of all 4096 nodes, floored at the
  zero word: the first 16 features for the one, the last 16 for the other.

  Every block carries a leading axis of extent one, which a change of shape drops before the product and puts
  back after it; row-major order sends (0, i, j) and (i, j) to the same position, so each such change of
  shape reads the same entry under the shorter or the longer index. A cut of 16 columns starting at column o
  reads column o + d of its source at column d. A matrix product accumulated into zero is, at an entry, the
  one whole sum over the contracted coordinate. The maximum against a constant array is the maximum against
  that constant, which is kept as its word and never evaluated.
-/
import proofs.«161750_g53850299957773_cont_9to1_m_306_6_alg».proof.Proof.Gen.KernelIdeal.Skeleton
import proofs.«161750_g53850299957773_cont_9to1_m_306_6_alg».proof.Proof.Spec
import proofs.«161750_g53850299957773_cont_9to1_m_306_6_alg».proof.Proof.LibPlainMatmul
import proofs.«161750_g53850299957773_cont_9to1_m_306_6_alg».proof.Proof.LibMatmulNT
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Idealize.ShloMosaic.ValueIdx
open Cert.KernelIdeal Cert.KernelIdeal.Gen Cert.Spec
open scoped BigOperators

/-! ## The encoder's two blocks -/

/-- The features-times-weights block at row `n` and column `h`: the sum over the input features `f` of
    `x(0, n, f) · W(f, h)`.
    The last change of shape is between equal shapes, so it is the identity. The product is a plain
    rows-by-columns one into a zero accumulator, so its entry is the whole sum over the contracted coordinate
    of the left operand at `(n, f)` times the right at `(f, h)`; and the left operand is the block with its
    leading unit axis dropped, whose entry `(n, f)` is the block's entry `(0, n, f)`. -/
theorem pay1_apply (v10 : Vec Ideal S1x4096x128 .f32) (v12 : Vec Ideal S128x32 .f32) (n : Fin 4096) (h : Fin 32) :
    k0_pay1 (F := Ideal) v10 v12 (ix2 n h) = ∑ f : Fin 128, v10 (ix3 (0 : Fin 1) n f) * v12 (ix2 f h) := by
  unfold k0_pay1
  -- a change of shape from [4096, 32] to [4096, 32] changes nothing
  rw [shapeCast_self]
  -- the product's dimension numbers are those of a plain matrix product; read it at (n, h)
  refine (PlainMatmul.matmul_zero_apply dot_S4096x128_S128x32_S4096x32_1_0_0_1_n_n_wf none
    (shapeCast S4096x128 v10 shapeCasts_S1x4096x128_S4096x128) v12 n h).trans ?_
  -- term by term: the [1, 4096, 128] block read as [4096, 128] at (n, f) is the block at (0, n, f)
  refine Finset.sum_congr rfl fun f _ => ?_
  rw [shapeCast_1ab_ab_apply]

/-- The adjacency-times-support block at `(0, r, h)`: the sum over the nodes `k` of
    `adj(0, r, k) · s(k, h)`.
    The result is a `[1024, 32]` product given a leading unit axis, so its entry `(0, r, h)` is the product's
    entry `(r, h)`; the product is a plain one into zero; and its left operand is the block of adjacency rows
    with the leading unit axis dropped. -/
theorem pay2_apply (v3 : Vec Ideal S1x1024x4096 .f32) (v5 : Vec Ideal S4096x32 .f32) (r : Fin 1024) (h : Fin 32) :
    k0_pay2 (F := Ideal) v3 v5 (ix3 (0 : Fin 1) r h) = ∑ k : Fin 4096, v3 (ix3 (0 : Fin 1) r k) * v5 (ix2 k h) := by
  unfold k0_pay2
  -- the [1024, 32] product read as [1, 1024, 32] at (0, r, h) is the product at (r, h)
  rw [shapeCast_ab_1ab_apply]
  -- a plain matrix product into zero, read at (r, h)
  refine (PlainMatmul.matmul_zero_apply dot_S1024x4096_S4096x32_S1024x32_1_0_0_1_n_n_wf none
    (shapeCast S1024x4096 v3 shapeCasts_S1x1024x4096_S1024x4096) v5 r h).trans ?_
  -- term by term: the [1, 1024, 4096] block read as [1024, 4096] at (r, k) is the block at (0, r, k)
  refine Finset.sum_congr rfl fun k _ => ?_
  rw [shapeCast_1ab_ab_apply]

/-! ## The decoder's two blocks -/

/-- The first decoder block at `(0, p, q)`: the inner product of the first 16 hidden features of node `p` of
    the 512-node block with those of node `q`, floored at the zero word.
    Outermost the result is a `[512, 4096]` array given a leading unit axis; that array is the entrywise
    maximum of a product and the constant array of the zero word. The product contracts the second axis of
    both operands, so its entry `(p, q)` is the sum over `d` of the left operand at `(p, d)` times the right at
    `(q, d)`. Each operand is a cut of 16 columns starting at column 0 — column `d` of the cut is column
    `0 + d`, which is `lo d` — out of a block with its leading unit axis dropped. -/
theorem pay3_apply (v0 : Vec Ideal S1x512x32 .f32) (v2 : Vec Ideal S1x4096x32 .f32) (p : Fin 512) (q : Fin 4096) :
    k1_pay3 (F := Ideal) v0 v2 (ix3 (0 : Fin 1) p q)
      = max (∑ d : Fin 16, v0 (ix3 (0 : Fin 1) p (lo d)) * v2 (ix3 (0 : Fin 1) q (lo d))) z0 := by
  unfold k1_pay3 k1_pay1 k1_pay2
  -- the added unit axis, then the maximum and the constant array, each read at (p, q)
  rw [shapeCast_ab_1ab_apply, maximumf_apply, broadcast_apply]
  -- the floor is the same word on both sides; what remains is the product's entry
  refine congrArg (fun t => max t z0) ?_
  -- a product against the transposed right operand into zero, read at (p, q)
  refine (MatmulNT.matmul_zero_apply dot_S512x16_S4096x16_S512x4096_1_1_0_0_n_n_wf none _ _ p q).trans ?_
  -- term by term: column d of a cut from column 0 is column lo d, then the dropped unit axis
  refine Finset.sum_congr rfl fun d _ => ?_
  rw [slice2_axis1_apply 0 _ _ p d (lo d) (Nat.zero_add _).symm,
    slice2_axis1_apply 0 _ _ q d (lo d) (Nat.zero_add _).symm,
    shapeCast_1ab_ab_apply, shapeCast_1ab_ab_apply]

/-- The second decoder block at `(0, p, q)`: the same with the last 16 hidden features. The cuts start at
    column 16, so column `d` of a cut is column `16 + d` of its source, which is `hi d` (whose value is written
    `d + 16`: the two agree by commutativity of addition). -/
theorem pay4_apply (v0 : Vec Ideal S1x512x32 .f32) (v2 : Vec Ideal S1x4096x32 .f32) (p : Fin 512) (q : Fin 4096) :
    k1_pay4 (F := Ideal) v0 v2 (ix3 (0 : Fin 1) p q)
      = max (∑ d : Fin 16, v0 (ix3 (0 : Fin 1) p (hi d)) * v2 (ix3 (0 : Fin 1) q (hi d))) z0 := by
  unfold k1_pay4 k1_pay1 k1_pay2
  -- the added unit axis, then the maximum and the constant array, each read at (p, q)
  rw [shapeCast_ab_1ab_apply, maximumf_apply, broadcast_apply]
  -- the floor is the same word on both sides; what remains is the product's entry
  refine congrArg (fun t => max t z0) ?_
  -- a product against the transposed right operand into zero, read at (p, q)
  refine (MatmulNT.matmul_zero_apply dot_S512x16_S4096x16_S512x4096_1_1_0_0_n_n_wf none _ _ p q).trans ?_
  -- term by term: column d of a cut from column 16 is column hi d, then the dropped unit axis
  refine Finset.sum_congr rfl fun d _ => ?_
  rw [slice2_axis1_apply 16 _ _ p d (hi d) (Nat.add_comm _ _),
    slice2_axis1_apply 16 _ _ q d (hi d) (Nat.add_comm _ _),
    shapeCast_1ab_ab_apply, shapeCast_1ab_ab_apply]

end Cert.KernelIdeal.PayIdeal

end
-- ==== Proof.Val0.lean ====
/-
  The encoder's output array is the hidden features.

  The encoder runs over eight points, point t = 4·b + i for batch b (0 or 1) and row-block i (0 to 3). At point t it
  reads the whole features array of batch b, the whole weight matrix, and rows 1024·i … 1024·i + 1023 of batch b's
  adjacency matrix; it writes rows 1024·i … 1024·i + 1023 of batch b of the output. Every block coordinate is
  (block index) × (block extent) + (coordinate inside the block), and the block indices are t / 4 on the batch axis,
  t % 4 on the row axis of the adjacency and output blocks, and 0 elsewhere.

  The scratch after point t holds the support of batch t / 4: at a batch's first row-block (t % 4 = 0) it is stored
  afresh, and entry (n, h) of what is stored is Σ_f x[t / 4, n, f] · W[f, h]; at the other row-blocks it is what the
  point before left, and (t − 1) / 4 = t / 4 there. By induction on the point, then, it is the support of batch t / 4
  at every point.

  The block written at point t has at (0, r, h) the sum Σ_k adj[t / 4, 1024·(t % 4) + r, k] · scratch[k, h], which is
  the hidden feature h of node 1024·(t % 4) + r of batch t / 4: the entry of the hidden-features array at the place
  of the output array the block is written to. Each entry (b, n, h) of the output array lies in the block of point
  4·b + n / 1024, so after the last point the whole array is the hidden features.
-/
import proofs.«161750_g53850299957773_cont_9to1_m_306_6_alg».proof.Proof.FrDat0
import proofs.«161750_g53850299957773_cont_9to1_m_306_6_alg».proof.Proof.PayIdeal
import proofs.«161750_g53850299957773_cont_9to1_m_306_6_alg».proof.Proof.Spec
import Idealize.ShloMosaic.Lib.ValueIdx
import Idealize.ShloMosaic.Lib.Pipeline.Value

noncomputable section

namespace Cert.KernelIdeal.Val0

open Idealize.ShloMosaic Idealize.ShloMosaic.TcCoe Idealize.SL.Sem
open Idealize.ShloMosaic.Pipeline (Dat)
open Cert.KernelIdeal Cert.KernelIdeal.Gen Cert.Spec Idealize.ShloMosaic.ValueIdx
open Cert.KernelIdeal.PayIdeal
open scoped BigOperators

variable (V : (c : Dev nD) → (b : Ref sig .tc) → Buf (Elt Ideal) ((c : Thread nD τ).loc b))

/-! ## The eight points and their block indices -/

/-- The encoder's grid has eight points: two batches of four row-blocks. -/
theorem points_eq : cfg0.N = 8 := N_0

/-- The block indices at point `t`, decided once over the eight points: the features block is batch `t / 4` whole;
    the weights block is the whole matrix; the adjacency block and the output block are row-block `t % 4` of batch
    `t / 4`. -/
theorem block_indices : ∀ t : Fin cfg0.N,
    (win0_0.index t (0 : Fin 3) = t.val / 4 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0) :=
  (by decide +kernel : ∀ t : Fin grid0.N, _)

/-- A point's batch, `t / 4`, is below 2. -/
theorem batch_lt (t : Fin cfg0.N) : t.val / 4 < 2 := by have := lt_of_lt_of_eq t.isLt points_eq; omega

/-- Row `r` of row-block `t % 4` is row `1024 · (t % 4) + r` of the 4096. -/
theorem row_lt (t : Fin cfg0.N) (r : Fin 1024) : t.val % 4 * 1024 + r.val < 4096 := by have := r.isLt; omega

/-! ## The input blocks, read at coordinates

Each is the array at the block's coordinates: on every axis, block index × block extent + the coordinate inside. -/

/-- The features block at point `t`, at `(0, n, f)`, is `x[t / 4, n, f]`. -/
theorem x_block_apply (c : Dev nD) (t : Fin cfg0.N) (n : Fin 4096) (f : Fin 128) :
    (iblk0 V c 0 t : Vec Ideal S1x4096x128 .f32) (ix3 (0 : Fin 1) n f)
      = (V c main_arg0 : S2x4096x128.Idx → EReal) (ix3 (⟨t.val / 4, batch_lt t⟩ : Fin 2) n f) := by
  obtain ⟨⟨e0, e1, e2⟩, -⟩ := block_indices t
  unfold iblk0
  rw [View.read_apply]
  show V c main_arg0 _ = V c main_arg0 _
  congr 1
  funext a; apply Fin.ext
  match a with
  | ⟨0, _⟩ => show win0_0.index t (0 : Fin 3) * 1 + 1 * 0 = t.val / 4; omega
  | ⟨1, _⟩ => show win0_0.index t (1 : Fin 3) * 4096 + 1 * n.val = n.val; omega
  | ⟨2, _⟩ => show win0_0.index t (2 : Fin 3) * 128 + 1 * f.val = f.val; omega

/-- The weights block at any point, at `(f, h)`, is `W[f, h]`. -/
theorem w_block_apply (c : Dev nD) (t : Fin cfg0.N) (f : Fin 128) (h : Fin 32) :
    (iblk0 V c 1 t : Vec Ideal S128x32 .f32) (ix2 f h) = (V c main_arg2 : S128x32.Idx → EReal) (ix2 f h) := by
  obtain ⟨-, ⟨e0, e1⟩, -⟩ := block_indices t
  unfold iblk0
  rw [View.read_apply]
  show V c main_arg2 _ = V c main_arg2 _
  congr 1
  funext a; apply Fin.ext
  match a with
  | ⟨0, _⟩ => show win0_1.index t (0 : Fin 2) * 128 + 1 * f.val = f.val; omega
  | ⟨1, _⟩ => show win0_1.index t (1 : Fin 2) * 32 + 1 * h.val = h.val; omega

/-- The adjacency block at point `t`, at `(0, r, k)`, is `adj[t / 4, 1024 · (t % 4) + r, k]`. -/
theorem adj_block_apply (c : Dev nD) (t : Fin cfg0.N) (r : Fin 1024) (k : Fin 4096) :
    (iblk0 V c 2 t : Vec Ideal S1x1024x4096 .f32) (ix3 (0 : Fin 1) r k)
      = (V c main_arg1 : S2x4096x4096.Idx → EReal)
          (ix3 (⟨t.val / 4, batch_lt t⟩ : Fin 2) (⟨t.val % 4 * 1024 + r.val, row_lt t r⟩ : Fin 4096) k) := by
  obtain ⟨-, -, ⟨e0, e1, e2⟩, -⟩ := block_indices t
  unfold iblk0
  rw [View.read_apply]
  show V c main_arg1 _ = V c main_arg1 _
  congr 1
  funext a; apply Fin.ext
  match a with
  | ⟨0, _⟩ => show win0_2.index t (0 : Fin 3) * 1 + 1 * 0 = t.val / 4; omega
  | ⟨1, _⟩ => show win0_2.index t (1 : Fin 3) * 1024 + 1 * r.val = t.val % 4 * 1024 + r.val; omega
  | ⟨2, _⟩ => show win0_2.index t (2 : Fin 3) * 4096 + 1 * k.val = k.val; omega

/-! ## The two stored values, read at an index, over any blocks

Each is one store of a whole block at zero offsets over loads of whole blocks at zero offsets: the store leaves its
payload, a load reads the contents. -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- What a batch's first row-block stores into the scratch, at `(n, h)`: `Σ_f x0[0, n, f] · x1[f, h]`. -/
theorem support_store_apply (x0 : Vec Ideal S1x4096x128 .f32) (x1 : Vec Ideal S128x32 .f32) (n : Fin 4096) (h : Fin 32) :
    outE_s x0 x1 (ix2 n h) = ∑ f : Fin 128, x0 (ix3 (0 : Fin 1) n f) * x1 (ix2 f h) := by
  unfold outE_s
  rw [View.canon_unit_zero (S := S4096x32) zeros2, View.ld_unit_zero (S := S1x4096x128) zeros3,
    View.ld_unit_zero (S := S128x32) zeros2]
  exact pay1_apply x0 x1 n h

/-- What every point stores into its output block, at `(0, r, h)`: `Σ_k x2[0, r, k] · s[k, h]` for the scratch's
    contents `s`. -/
theorem hidden_store_apply (x2 : Vec Ideal S1x1024x4096 .f32) (s : Vec Ideal S4096x32 .f32) (r : Fin 1024) (h : Fin 32) :
    outE_h x2 s (ix3 (0 : Fin 1) r h) = ∑ k : Fin 4096, x2 (ix3 (0 : Fin 1) r k) * s (ix2 k h) := by
  unfold outE_h
  rw [View.canon_unit_zero (S := S1x1024x32) zeros3, View.ld_unit_zero (S := S1x1024x4096) zeros3,
    View.ld_unit_zero (S := S4096x32) zeros2]
  exact pay2_apply x2 s r h

/-! ## The scratch after each point is the support of the point's batch -/

/-- What point `t` would store into the scratch, from its own features and weights blocks, is the support of batch
    `t / 4`: term by term, the two blocks are the arrays at the block's coordinates. -/
theorem support_first_apply (c : Dev nD) (t : Fin cfg0.N) (n : Fin 4096) (h : Fin 32) :
    outE_s (iblk0 V c 0 t) (iblk0 V c 1 t) (ix2 n h)
      = support (V c main_arg0 : S2x4096x128.Idx → EReal) (V c main_arg2 : S128x32.Idx → EReal)
          (⟨t.val / 4, batch_lt t⟩ : Fin 2) n h := by
  refine (support_store_apply _ _ n h).trans ?_
  unfold support
  refine Finset.sum_congr rfl fun f _ => ?_
  rw [x_block_apply, w_block_apply]

/-- By induction on the point `m`: at a first row-block the scratch is stored afresh with the support of batch
    `m / 4`; at any other it is what point `m − 1` left, the support of batch `(m − 1) / 4 = m / 4`. -/
theorem scr_apply_nat (c : Dev nD) : ∀ (m : ℕ) (hm : m < cfg0.N) (n : Fin 4096) (h : Fin 32),
    scrAt (F := Ideal) V c m hm (ix2 n h)
      = support (V c main_arg0 : S2x4096x128.Idx → EReal) (V c main_arg2 : S128x32.Idx → EReal)
          (⟨m / 4, batch_lt ⟨m, hm⟩⟩ : Fin 2) n h := by
  intro m
  induction m with
  | zero =>
    intro hm n h
    exact (congrFun (scrAt_first V c ⟨0, hm⟩ rfl) _).trans (support_first_apply V c ⟨0, hm⟩ n h)
  | succ k ih =>
    intro hm n h
    by_cases h0 : (k + 1) % 4 = 0
    · exact (congrFun (scrAt_first V c ⟨k + 1, hm⟩ h0) _).trans (support_first_apply V c ⟨k + 1, hm⟩ n h)
    · refine (congrFun (scrAt_rest V c ⟨k + 1, hm⟩ h0) _).trans ?_
      refine (ih (Nat.lt_of_succ_lt hm) n h).trans ?_
      -- not at a multiple of four, the point before is in the same batch
      have e : (⟨k / 4, batch_lt ⟨k, Nat.lt_of_succ_lt hm⟩⟩ : Fin 2) = ⟨(k + 1) / 4, batch_lt ⟨k + 1, hm⟩⟩ :=
        Fin.ext (by show k / 4 = (k + 1) / 4; omega)
      rw [e]

/-- The scratch after point `t`, at `(n, h)`, is the support of batch `t / 4` at `(n, h)`. -/
theorem scr_apply (c : Dev nD) (t : Fin cfg0.N) (n : Fin 4096) (h : Fin 32) :
    scrAt (F := Ideal) V c t.val t.isLt (ix2 n h)
      = support (V c main_arg0 : S2x4096x128.Idx → EReal) (V c main_arg2 : S128x32.Idx → EReal)
          (⟨t.val / 4, batch_lt t⟩ : Fin 2) n h :=
  scr_apply_nat V c t.val t.isLt n h

/-! ## The output array -/

/-- The hidden features of the three argument arrays as the encoder finds them. -/
abbrev hiddenArr (c : Dev nD) : S2x4096x32.Idx → EReal :=
  H (V c main_arg0 : SX.Idx → EReal) (V c main_arg1 : SA.Idx → EReal) (V c main_arg2 : SW.Idx → EReal)

/-- The block point `t` stores, at a local index `y`, is the hidden features at the array index `i` whose batch is
    `t / 4`, whose node is `1024 · (t % 4) + y 1` and whose feature is `y 2`: both are the sum over the nodes `k` of
    the adjacency entry times the support of batch `t / 4` at `(k, h)`. -/
theorem hidden_block_apply (c : Dev nD) (t : Fin cfg0.N) (y : S1x1024x32.Idx) (i : S2x4096x32.Idx)
    (h0 : (i 0).val = t.val / 4) (h1 : (i 1).val = t.val % 4 * 1024 + (y 1).val) (h2 : (i 2).val = (y 2).val) :
    outE_h (iblk0 V c 2 t) (scrAt V c t.val t.isLt) y = hiddenArr V c i := by
  obtain ⟨u, r, h, rfl⟩ : ∃ (u : Fin 1) (r : Fin 1024) (h : Fin 32), y = ix3 u r h := ⟨y 0, y 1, y 2, eq_ix3 y⟩
  obtain rfl : u = 0 := Subsingleton.elim _ _
  obtain rfl : i = ix3 (⟨t.val / 4, batch_lt t⟩ : Fin 2) (⟨t.val % 4 * 1024 + r.val, row_lt t r⟩ : Fin 4096) h := by
    funext a; apply Fin.ext
    match a with
    | ⟨0, _⟩ => exact h0
    | ⟨1, _⟩ => exact h1
    | ⟨2, _⟩ => exact h2
  refine (hidden_store_apply _ _ r h).trans ?_
  show _ = Cert.Spec.hidden _ _ _ _ _ _
  unfold Cert.Spec.hidden
  refine Finset.sum_congr rfl fun k _ => ?_
  rw [adj_block_apply, scr_apply]

/-- What point `t` writes back is block `t` of the hidden features. -/
theorem written_block_eq (c : Dev nD) (t : Fin cfg0.N) :
    (dat0 (F := Ideal) V c).flushed 3 t = ((cfg0.win 3).blk t).view.read (Elt Ideal) (hiddenArr V c) := by
  show (cfg0.win 3).cut (grid0.coords t) ((dat0 V c).after 3 t) = _
  rw [after0_3]
  obtain ⟨-, -, -, ⟨e0, e1, e2⟩⟩ := block_indices t
  funext j
  rw [View.read_apply]
  have hj0 : (j 0).val < 1 := (j 0).isLt
  refine hidden_block_apply V c t j _ ?_ ?_ ?_
  · show win0_3.index t (0 : Fin 3) * 1 + 1 * (j 0).val = t.val / 4; omega
  · show win0_3.index t (1 : Fin 3) * 1024 + 1 * (j 1).val = t.val % 4 * 1024 + (j 1).val; omega
  · show win0_3.index t (2 : Fin 3) * 32 + 1 * (j 2).val = (j 2).val; omega

/-- An index of the output array is in point `t`'s block iff each coordinate is in the block's range on its axis. -/
theorem mem_out_block (t : Fin cfg0.N) (i : S2x4096x32.Idx) :
    i ∈ ((cfg0.win 3).blk t).view.set ↔ ∀ a : Fin 3, win0_3.index t a * S1x1024x32.size a ≤ (i a).val
      ∧ (i a).val < win0_3.index t a * S1x1024x32.size a + S1x1024x32.size a := by
  show i ∈ ((View.whole main_v0_2).slice (win0_3.rect t)).set ↔ _
  rw [View.set_slice_whole, Rect.mem_set_unit]
  exact Iff.rfl

/-- Every index `(b, n, h)` of the output array is in the block of point `4 · b + n / 1024`, which writes back. -/
theorem out_blocks_cover (i : S2x4096x32.Idx) :
    ∃ t : Fin cfg0.N, (cfg0.win 3).flush t = true ∧ i ∈ ((cfg0.win 3).blk t).view.set := by
  have hi0 : (i 0).val < 2 := (i 0).isLt
  have hi1 : (i 1).val < 4096 := (i 1).isLt
  have hi2 : (i 2).val < 32 := (i 2).isLt
  let t : Fin cfg0.N := ⟨4 * (i 0).val + (i 1).val / 1024, by rw [points_eq]; omega⟩
  have ht : t.val = 4 * (i 0).val + (i 1).val / 1024 := rfl
  obtain ⟨-, -, -, ⟨e0, e1, e2⟩⟩ := block_indices t
  refine ⟨t, flush0_3 t, ?_⟩
  rw [mem_out_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 32 ≤ (i 2).val ∧ (i 2).val < win0_3.index t (2 : Fin 3) * 32 + 32; omega

/-- After the last point the output array is the hidden features: every point writes back its block of them, and
    the blocks cover the array. -/
theorem arr_h (c : Dev nD) :
    (dat0 (F := Ideal) V c).arrAt 3 cfg0.N
      = H (V c main_arg0 : SX.Idx → EReal) (V c main_arg1 : SA.Idx → EReal) (V c main_arg2 : SW.Idx → EReal) :=
  (dat0 V c).arrAt_eq_of_cover 3 (hiddenArr V c) (fun t _ => written_block_eq V c t) out_blocks_cover

end Cert.KernelIdeal.Val0

end
-- ==== Proof.Val1.lean ====
/-
  The decoder's two output arrays as functions of its input array, index by index.

  The decoder runs over a grid of 16 points: point t = 8·b + i handles batch b (0 or 1) and the block of 512
  rows 512·i … 512·i + 511 (i from 0 to 7). At a point it reads two blocks of ONE array, the hidden
  features hd [2, 4096, 32]: rows 512·i … 512·i + 511 of batch b, and all 4096 rows of batch b. It writes one
  block of each output array [2, 4096, 4096]: rows 512·i … 512·i + 511 of batch b, all 4096 columns. Entry
  (p, q) of the first output block is the inner product of the first 16 features of row p of the first input
  block with those of row q of the second, floored at the zero word; the second output block is the same with
  the last 16 features.

  So the block point t writes back is block t of the one function
      G j = max (Σ_d hd(j0, j1, d') · hd(j0, j2, d')) 0      (d' = d for the first output, d + 16 for the second)
  of the whole input array; the 16 blocks tile each output array (row n of batch b lies in the block of point
  8·b + n / 512); hence each output array ends holding G.
-/
import proofs.«161750_g53850299957773_cont_9to1_m_306_6_alg».proof.Proof.FrDat1
import proofs.«161750_g53850299957773_cont_9to1_m_306_6_alg».proof.Proof.PayIdeal
import proofs.«161750_g53850299957773_cont_9to1_m_306_6_alg».proof.Proof.Spec
import Idealize.ShloMosaic.Lib.Pipeline.Value
import Idealize.ShloMosaic.Lib.ValueIdx

set_option maxRecDepth 16384

noncomputable section

namespace Cert.KernelIdeal.Val1

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Three zero offsets, however spelt. -/
theorem hz : (![0, 0, 0] : Fin 3 → Nat) = fun _ => 0 := funext fun a => by fin_cases a <;> rfl

/-! ## The grid -/

/-- The four windows' block indices at point t, decided over the 16 points: every window is at batch t / 8;
    the 512-row input block and the two output blocks are at row-block t % 8; the whole-batch input block is
    at row-block 0; no window moves along its last axis. -/
theorem idx_facts : ∀ t : Fin cfg1.N,
      win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-! ## The two input blocks at a point are rows of the one input array -/

/-- Row p of the 512-row block at point t is row 512·(t % 8) + p of batch t / 8. -/
theorem rows_at (c : Dev nD) (t : Fin cfg1.N) (p : Fin 512) (h : Fin 32) (b : Fin 2) (n : Fin 4096)
    (hb : b.val = t.val / 8) (hn : n.val = t.val % 8 * 512 + p.val) :
    (iblk1 V c 0 t : Vec Ideal S1x512x32 .f32) (ix3 (0 : Fin 1) p h) = (V c main_v0_2 : SH.Idx → EReal) (ix3 b n h) := by
  obtain ⟨e0, e1, e2, -⟩ := idx_facts t
  unfold iblk1
  rw [View.read_apply]
  show V c main_v0_2 _ = V c main_v0_2 _
  congr 1
  funext a
  apply Fin.ext
  match a with
  | ⟨0, _⟩ => show win1_0.index t (0 : Fin 3) * 1 + 1 * 0 = b.val; rw [e0, hb]; omega
  | ⟨1, _⟩ => show win1_0.index t (1 : Fin 3) * 512 + 1 * p.val = n.val; rw [e1, hn]; omega
  | ⟨2, _⟩ => show win1_0.index t (2 : Fin 3) * 32 + 1 * h.val = h.val; rw [e2]; omega

/-- Row q of the whole-batch block at point t is row q of batch t / 8. -/
theorem all_at (c : Dev nD) (t : Fin cfg1.N) (q : Fin 4096) (h : Fin 32) (b : Fin 2) (hb : b.val = t.val / 8) :
    (iblk1 V c 1 t : Vec Ideal S1x4096x32 .f32) (ix3 (0 : Fin 1) q h) = (V c main_v0_2 : SH.Idx → EReal) (ix3 b q h) := by
  obtain ⟨-, -, -, e0, e1, e2, -⟩ := idx_facts t
  unfold iblk1
  rw [View.read_apply]
  show V c main_v0_2 _ = V c main_v0_2 _
  congr 1
  funext a
  apply Fin.ext
  match a with
  | ⟨0, _⟩ => show win1_1.index t (0 : Fin 3) * 1 + 1 * 0 = b.val; rw [e0, hb]; omega
  | ⟨1, _⟩ => show win1_1.index t (1 : Fin 3) * 4096 + 1 * q.val = q.val; rw [e1]; omega
  | ⟨2, _⟩ => show win1_1.index t (2 : Fin 3) * 32 + 1 * h.val = h.val; rw [e2]; omega

/-! ## What a point writes back -/

/-- The inner product of the features sel 0 … sel 15 of two rows of one batch, floored at the zero word: the
    first decoder with sel = lo, the second with sel = hi. -/
abbrev G (sel : Fin 16 → Fin 32) (hd : SH.Idx → EReal) : SA.Idx → EReal := fun j =>
  max (∑ d : Fin 16, hd (ix3 (j 0) (j 1) (sel d)) * hd (ix3 (j 0) (j 2) (sel d))) z0
/-- G read at an index. -/
theorem G_apply (sel : Fin 16 → Fin 32) (hd : SH.Idx → EReal) (j : SA.Idx) :
    G sel hd j = max (∑ d : Fin 16, hd (ix3 (j 0) (j 1) (sel d)) * hd (ix3 (j 0) (j 2) (sel d))) z0 := rfl

/-- The first output block over two blocks that are rows r + p (p below 512) and all rows of batch b of an
    array hd: its entry (p, q) is G lo hd at (b, r + p, q). Term by term under the sum. -/
theorem blk_mu (hd : SH.Idx → EReal) (x0 : Vec Ideal S1x512x32 .f32) (x1 : Vec Ideal S1x4096x32 .f32)
    (b : Fin 2) (r : Nat)
    (h0 : ∀ (p : Fin 512) (h : Fin 32) (n : Fin 4096), n.val = r + p.val → x0 (ix3 (0 : Fin 1) p h) = hd (ix3 b n h))
    (h1 : ∀ (q : Fin 4096) (h : Fin 32), x1 (ix3 (0 : Fin 1) q h) = hd (ix3 b q h))
    (p : Fin 512) (q n : Fin 4096) (hn : n.val = r + p.val) :
    k1_pay3 (F := Ideal) x0 x1 (ix3 (0 : Fin 1) p q) = G lo hd (ix3 b n q) := by
  rw [PayIdeal.pay3_apply]
  show max _ z0 = max _ z0
  refine congrArg (fun s => max s z0) (Finset.sum_congr rfl fun d _ => ?_)
  rw [h0 p (lo d) n hn, h1 q (lo d)]

/-- The second output block, the same with the last 16 features. -/
theorem blk_sigma (hd : SH.Idx → EReal) (x0 : Vec Ideal S1x512x32 .f32) (x1 : Vec Ideal S1x4096x32 .f32)
    (b : Fin 2) (r : Nat)
    (h0 : ∀ (p : Fin 512) (h : Fin 32) (n : Fin 4096), n.val = r + p.val → x0 (ix3 (0 : Fin 1) p h) = hd (ix3 b n h))
    (h1 : ∀ (q : Fin 4096) (h : Fin 32), x1 (ix3 (0 : Fin 1) q h) = hd (ix3 b q h))
    (p : Fin 512) (q n : Fin 4096) (hn : n.val = r + p.val) :
    k1_pay4 (F := Ideal) x0 x1 (ix3 (0 : Fin 1) p q) = G hi hd (ix3 b n q) := by
  rw [PayIdeal.pay4_apply]
  show max _ z0 = max _ z0
  refine congrArg (fun s => max s z0) (Finset.sum_congr rfl fun d _ => ?_)
  rw [h0 p (hi d) n hn, h1 q (hi d)]

/-- WHAT POINT t WRITES BACK to the first output is block t of G lo of the input array. -/
theorem flushed_mu (c : Dev nD) (t : Fin cfg1.N) :
    (dat1 V c).flushed 2 t = ((cfg1.win 2).blk t).view.read (Elt Ideal) (G lo (V c main_v0_2)) := by
  show (cfg1.win 2).cut (grid1.coords t) ((dat1 V c).after 2 t) = _
  rw [after1_2]
  unfold outD_2
  rw [View.canon_unit_zero (S := S1x512x4096) hz]
  simp only [View.ld_unit_zero (S := S1x512x32) hz, View.ld_unit_zero (S := S1x4096x32) hz]
  obtain ⟨-, -, -, -, -, -, e0, e1, e2, -⟩ := idx_facts t
  have hN : t.val < 16 := lt_of_lt_of_eq t.isLt (show cfg1.N = 16 from N_1)
  refine funext fun (y : S1x512x4096.Idx) => ?_
  obtain ⟨z, p, q, rfl⟩ : ∃ (z : Fin 1) (p : Fin 512) (q : Fin 4096), y = ix3 z p q := ⟨y 0, y 1, y 2, eq_ix3 y⟩
  obtain rfl : z = 0 := Subsingleton.elim _ _
  have hb : t.val / 8 < 2 := by omega
  have hn : t.val % 8 * 512 + p.val < 4096 := by have := p.isLt; omega
  -- the entry of the array under entry (0, p, q) of point t's block
  have hemb : ((cfg1.win 2).blk t).view.emb (ix3 (0 : Fin 1) p q)
      = ix3 (⟨t.val / 8, hb⟩ : Fin 2) (⟨t.val % 8 * 512 + p.val, hn⟩ : Fin 4096) q := by
    funext a
    apply Fin.ext
    match a with
    | ⟨0, _⟩ => show win1_2.index t (0 : Fin 3) * 1 + 1 * 0 = t.val / 8; rw [e0]; omega
    | ⟨1, _⟩ => show win1_2.index t (1 : Fin 3) * 512 + 1 * p.val = t.val % 8 * 512 + p.val; rw [e1]; omega
    | ⟨2, _⟩ => show win1_2.index t (2 : Fin 3) * 4096 + 1 * q.val = q.val; rw [e2]; omega
  show k1_pay3 (F := Ideal) (iblk1 V c 0 t) (iblk1 V c 1 t) (ix3 (0 : Fin 1) p q)
      = G lo (V c main_v0_2) (((cfg1.win 2).blk t).view.emb (ix3 (0 : Fin 1) p q))
  rw [hemb]
  exact blk_mu (V c main_v0_2) (iblk1 V c 0 t) (iblk1 V c 1 t) ⟨t.val / 8, hb⟩ (t.val % 8 * 512)
    (fun p h n hn => rows_at V c t p h _ n rfl hn) (fun q h => all_at V c t q h _ rfl) p q _ rfl

/-- WHAT POINT t WRITES BACK to the second output is block t of G hi of the input array. -/
theorem flushed_sigma (c : Dev nD) (t : Fin cfg1.N) :
    (dat1 V c).flushed 3 t = ((cfg1.win 3).blk t).view.read (Elt Ideal) (G hi (V c main_v0_2)) := by
  show (cfg1.win 3).cut (grid1.coords t) ((dat1 V c).after 3 t) = _
  rw [after1_3]
  unfold outD_3
  rw [View.canon_unit_zero (S := S1x512x4096) hz]
  simp only [View.ld_unit_zero (S := S1x512x32) hz, View.ld_unit_zero (S := S1x4096x32) hz]
  obtain ⟨-, -, -, -, -, -, -, -, -, e0, e1, e2⟩ := idx_facts t
  have hN : t.val < 16 := lt_of_lt_of_eq t.isLt (show cfg1.N = 16 from N_1)
  refine funext fun (y : S1x512x4096.Idx) => ?_
  obtain ⟨z, p, q, rfl⟩ : ∃ (z : Fin 1) (p : Fin 512) (q : Fin 4096), y = ix3 z p q := ⟨y 0, y 1, y 2, eq_ix3 y⟩
  obtain rfl : z = 0 := Subsingleton.elim _ _
  have hb : t.val / 8 < 2 := by omega
  have hn : t.val % 8 * 512 + p.val < 4096 := by have := p.isLt; omega
  -- the entry of the array under entry (0, p, q) of point t's block
  have hemb : ((cfg1.win 3).blk t).view.emb (ix3 (0 : Fin 1) p q)
      = ix3 (⟨t.val / 8, hb⟩ : Fin 2) (⟨t.val % 8 * 512 + p.val, hn⟩ : Fin 4096) q := by
    funext a
    apply Fin.ext
    match a with
    | ⟨0, _⟩ => show win1_3.index t (0 : Fin 3) * 1 + 1 * 0 = t.val / 8; rw [e0]; omega
    | ⟨1, _⟩ => show win1_3.index t (1 : Fin 3) * 512 + 1 * p.val = t.val % 8 * 512 + p.val; rw [e1]; omega
    | ⟨2, _⟩ => show win1_3.index t (2 : Fin 3) * 4096 + 1 * q.val = q.val; rw [e2]; omega
  show k1_pay4 (F := Ideal) (iblk1 V c 0 t) (iblk1 V c 1 t) (ix3 (0 : Fin 1) p q)
      = G hi (V c main_v0_2) (((cfg1.win 3).blk t).view.emb (ix3 (0 : Fin 1) p q))
  rw [hemb]
  exact blk_sigma (V c main_v0_2) (iblk1 V c 0 t) (iblk1 V c 1 t) ⟨t.val / 8, hb⟩ (t.val % 8 * 512)
    (fun p h n hn => rows_at V c t p h _ n rfl hn) (fun q h => all_at V c t q h _ rfl) p q _ rfl

/-! ## The 16 blocks tile each output array -/

/-- An index of the first output array is in point t's block iff each coordinate is in the block's range. -/
theorem mem_blk_mu (t : Fin cfg1.N) (i : SA.Idx) :
    i ∈ ((cfg1.win 2).blk t).view.set ↔ ∀ a : Fin 3, win1_2.index t a * S1x512x4096.size a ≤ (i a).val
      ∧ (i a).val < win1_2.index t a * S1x512x4096.size a + S1x512x4096.size a := by
  show i ∈ ((View.whole main_v0_0).slice (win1_2.rect t)).set ↔ _
  rw [View.set_slice_whole, Rect.mem_set_unit]
  exact Iff.rfl

/-- The same for the second output array. -/
theorem mem_blk_sigma (t : Fin cfg1.N) (i : SA.Idx) :
    i ∈ ((cfg1.win 3).blk t).view.set ↔ ∀ a : Fin 3, win1_3.index t a * S1x512x4096.size a ≤ (i a).val
      ∧ (i a).val < win1_3.index t a * S1x512x4096.size a + S1x512x4096.size a := by
  show i ∈ ((View.whole main_v0_1).slice (win1_3.rect t)).set ↔ _
  rw [View.set_slice_whole, Rect.mem_set_unit]
  exact Iff.rfl

/-- Entry (b, n, n') of the first output array is in the block of point 8·b + n / 512, which is written back. -/
theorem cover_mu (i : SA.Idx) : ∃ t : Fin cfg1.N, (cfg1.win 2).flush t = true ∧ i ∈ ((cfg1.win 2).blk t).view.set := by
  have hi0 : (i 0).val < 2 := (i 0).isLt
  have hi1 : (i 1).val < 4096 := (i 1).isLt
  have hi2 : (i 2).val < 4096 := (i 2).isLt
  obtain ⟨t, ht⟩ : ∃ t : Fin cfg1.N, t.val = 8 * (i 0).val + (i 1).val / 512 :=
    ⟨⟨8 * (i 0).val + (i 1).val / 512, lt_of_lt_of_eq (by omega : 8 * (i 0).val + (i 1).val / 512 < 16) (show cfg1.N = 16 from N_1).symm⟩, rfl⟩
  obtain ⟨-, -, -, -, -, -, e0, e1, e2, -⟩ := idx_facts t
  refine ⟨t, flush1_2 t, ?_⟩
  rw [mem_blk_mu]
  intro a
  match a with
  | ⟨0, _⟩ =>
    show win1_2.index t (0 : Fin 3) * 1 ≤ (i 0).val ∧ (i 0).val < win1_2.index t (0 : Fin 3) * 1 + 1
    rw [e0, ht]; omega
  | ⟨1, _⟩ =>
    show win1_2.index t (1 : Fin 3) * 512 ≤ (i 1).val ∧ (i 1).val < win1_2.index t (1 : Fin 3) * 512 + 512
    rw [e1, ht]; omega
  | ⟨2, _⟩ =>
    show win1_2.index t (2 : Fin 3) * 4096 ≤ (i 2).val ∧ (i 2).val < win1_2.index t (2 : Fin 3) * 4096 + 4096
    rw [e2]; omega

/-- The same for the second output array. -/
theorem cover_sigma (i : SA.Idx) : ∃ t : Fin cfg1.N, (cfg1.win 3).flush t = true ∧ i ∈ ((cfg1.win 3).blk t).view.set := by
  have hi0 : (i 0).val < 2 := (i 0).isLt
  have hi1 : (i 1).val < 4096 := (i 1).isLt
  have hi2 : (i 2).val < 4096 := (i 2).isLt
  obtain ⟨t, ht⟩ : ∃ t : Fin cfg1.N, t.val = 8 * (i 0).val + (i 1).val / 512 :=
    ⟨⟨8 * (i 0).val + (i 1).val / 512, lt_of_lt_of_eq (by omega : 8 * (i 0).val + (i 1).val / 512 < 16) (show cfg1.N = 16 from N_1).symm⟩, rfl⟩
  obtain ⟨-, -, -, -, -, -, -, -, -, e0, e1, e2⟩ := idx_facts t
  refine ⟨t, flush1_3 t, ?_⟩
  rw [mem_blk_sigma]
  intro a
  match a with
  | ⟨0, _⟩ =>
    show win1_3.index t (0 : Fin 3) * 1 ≤ (i 0).val ∧ (i 0).val < win1_3.index t (0 : Fin 3) * 1 + 1
    rw [e0, ht]; omega
  | ⟨1, _⟩ =>
    show win1_3.index t (1 : Fin 3) * 512 ≤ (i 1).val ∧ (i 1).val < win1_3.index t (1 : Fin 3) * 512 + 512
    rw [e1, ht]; omega
  | ⟨2, _⟩ =>
    show win1_3.index t (2 : Fin 3) * 4096 ≤ (i 2).val ∧ (i 2).val < win1_3.index t (2 : Fin 3) * 4096 + 4096
    rw [e2]; omega

/-! ## The two output arrays after the region -/

/-- The first output array ends holding the first decoder of the input array. -/
theorem arr_mu (c : Dev nD) : (dat1 (F := Ideal) V c).arrAt 2 cfg1.N = G lo (V c main_v0_2) :=
  (dat1 V c).arrAt_eq_of_cover 2 (G lo (V c main_v0_2)) (fun t _ => flushed_mu V c t) cover_mu

/-- The second output array ends holding the second decoder of the input array. -/
theorem arr_sigma (c : Dev nD) : (dat1 (F := Ideal) V c).arrAt 3 cfg1.N = G hi (V c main_v0_2) :=
  (dat1 V c).arrAt_eq_of_cover 3 (G hi (V c main_v0_2)) (fun t _ => flushed_sigma V c t) cover_sigma

/-- When the input array holds the specification's hidden features, the first output ends holding its Mu. -/
theorem arr_mu_spec (c : Dev nD) (x : SX.Idx → EReal) (adj : SA.Idx → EReal) (w : SW.Idx → EReal)
    (hV : V c main_v0_2 = Cert.Spec.H x adj w) : (dat1 (F := Ideal) V c).arrAt 2 cfg1.N = Cert.Spec.Mu x adj w := by
  rw [arr_mu, hV]
  rfl

/-- When the input array holds the specification's hidden features, the second output ends holding its Sigma. -/
theorem arr_sigma_spec (c : Dev nD) (x : SX.Idx → EReal) (adj : SA.Idx → EReal) (w : SW.Idx → EReal)
    (hV : V c main_v0_2 = Cert.Spec.H x adj w) : (dat1 (F := Ideal) V c).arrAt 3 cfg1.N = Cert.Spec.Sigma x adj w := by
  rw [arr_sigma, hV]
  rfl

end Cert.KernelIdeal.Val1

end
-- ==== Proof.lean ====
/-
  The kernel — an encoder and a decoder, two grid-scheduled regions — against its jnp reference, over the extended reals.

  Both programs compute, for a batch b,
    support = x[b] · W,   hidden = adj[b] · support,
    mu = max (hidden_lo · hidden_loᵀ) 0,   sigma = max (hidden_hi · hidden_hiᵀ) 0,
  where lo / hi are the first / last 16 of the 32 hidden features (the specification module states these index by index).
  The kernel computes support once per batch into a scratch it carries over the batch's four row-blocks, hidden a
  row-block of 1024 rows at a time, and the two decoders a row-block of 512 rows at a time, reading hidden through two
  windows of one array. Every contraction of either program is one whole sum over its index type, and the floor is the same
  zero word on both sides, so the two programs agree term by term: no law of the extended reals is used and the
  precondition is never opened.

  The frames of the two kernel programs are one run, written once at any instance of the float operations: every
  unscoped buffer is followed through the two regions, the three arguments reading back their launch contents. The
  reference's frame is its run with the results dropped. The idealization rewrote no operation, so there is nothing to
  preserve. For the equivalence, the kernel's run leaves in its three results what the regions' write-backs leave, and
  those are the specification's three arrays (hidden from the encoder's blocks; the decoders from the decoder's blocks
  over that hidden); the reference's run leaves the same three arrays of arguments that agree.
-/
import proofs.«161750_g53850299957773_cont_9to1_m_306_6_alg».proof.Defs
import proofs.«161750_g53850299957773_cont_9to1_m_306_6_alg».proof.Proof.Gen.Kernel
import proofs.«161750_g53850299957773_cont_9to1_m_306_6_alg».proof.Proof.Gen.KernelIdeal
import proofs.«161750_g53850299957773_cont_9to1_m_306_6_alg».proof.Proof.Gen.ReferenceIdeal
import proofs.«161750_g53850299957773_cont_9to1_m_306_6_alg».proof.Proof.Gen.Pre_finite_inputs
import proofs.«161750_g53850299957773_cont_9to1_m_306_6_alg».proof.Proof.KFrRun
import proofs.«161750_g53850299957773_cont_9to1_m_306_6_alg».proof.Proof.FrRun
import proofs.«161750_g53850299957773_cont_9to1_m_306_6_alg».proof.Proof.RefSide
import proofs.«161750_g53850299957773_cont_9to1_m_306_6_alg».proof.Proof.Val0
import proofs.«161750_g53850299957773_cont_9to1_m_306_6_alg».proof.Proof.Val1
import Idealize.ShloMosaic.Adequacy
import Idealize.ShloMosaic.Init

noncomputable section

namespace Cert.Proof

open Idealize.ShloMosaic Idealize.ShloMosaic.TcCoe Idealize.SL.Sem

/-! ## The kernel's three results are the specification's -/

section Values

open Cert.KernelIdeal Cert.KernelIdeal.Gen

variable (m : (ℓ : Loc nD τ sig) → Buf (Elt Ideal) ℓ)

/-- What the encoder leaves in the hidden-features array: the specification's hidden features of the arguments. -/
theorem arrH_eq (c : Dev nD) :
    arrH m c = Cert.Spec.H (m ((c.tc : Thread nD τ).loc main_arg0)) (m ((c.tc : Thread nD τ).loc main_arg1)) (m ((c.tc : Thread nD τ).loc main_arg2)) :=
  Cert.KernelIdeal.Val0.arr_h (VR0 m) c

/-- The decoder enters with the hidden-features array at the specification's. -/
theorem VR1_h (c : Dev nD) :
    VR1 m c main_v0_2 = Cert.Spec.H (m ((c.tc : Thread nD τ).loc main_arg0)) (m ((c.tc : Thread nD τ).loc main_arg1)) (m ((c.tc : Thread nD τ).loc main_arg2)) :=
  (W1_h m c).trans (arrH_eq m c)

theorem arrMu_eq (c : Dev nD) :
    arrMu m c = Cert.Spec.Mu (m ((c.tc : Thread nD τ).loc main_arg0)) (m ((c.tc : Thread nD τ).loc main_arg1)) (m ((c.tc : Thread nD τ).loc main_arg2)) :=
  Cert.KernelIdeal.Val1.arr_mu_spec (VR1 m) c _ _ _ (VR1_h m c)

theorem arrSg_eq (c : Dev nD) :
    arrSg m c = Cert.Spec.Sigma (m ((c.tc : Thread nD τ).loc main_arg0)) (m ((c.tc : Thread nD τ).loc main_arg1)) (m ((c.tc : Thread nD τ).loc main_arg2)) :=
  Cert.KernelIdeal.Val1.arr_sigma_spec (VR1 m) c _ _ _ (VR1_h m c)

end Values

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From arguments that agree both runs end with the specification's three arrays of those arguments. -/
theorem algebraic : Cert.algebraic_KernelIdeal_ReferenceIdeal := by
  intro m ρ m' ρ' _ hagree
  refine ⟨fun c => Cert.Spec.Mu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.Sigma (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.H (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    ?_, ?_⟩
  · refine (θ_run Cert.KernelIdeal.defs _ _).mono (fun _ h c => ?_) (Cert.KernelIdeal.Gen.run_arrays (F := Ideal) m ρ)
    exact ⟨(h c).1.trans (arrMu_eq m c), (h c).2.1.trans (arrSg_eq m c), (h c).2.2.1.trans (arrH_eq m c),
      (h c).2.2.2.1, (h c).2.2.2.2.1, (h c).2.2.2.2.2⟩
  · refine (θ_run Cert.ReferenceIdeal.defs _ _).mono (fun _ h c => ?_) (Cert.ReferenceIdeal.RefSide.run_spec m' ρ')
    refine ⟨?_, ?_, ?_, (h c).2.2.2.1, (h c).2.2.2.2.1, (h c).2.2.2.2.2⟩
    · rw [(h c).1, (hagree c).1, (hagree c).2.1, (hagree c).2.2]
    · rw [(h c).2.1, (hagree c).1, (hagree c).2.1, (hagree c).2.2]
    · rw [(h c).2.2.1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
